-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x128 : Shape := ⟨2, ![512, 128]⟩
abbrev S256x512 : Shape := ⟨2, ![256, 512]⟩
abbrev S512 : Shape := ⟨1, ![512]⟩
abbrev S512x1 : Shape := ⟨2, ![512, 1]⟩
abbrev S1 : Shape := ⟨1, ![1]⟩
abbrev S_ : Shape := ⟨0, ![]⟩

class Facts : Prop where
  bcast_S_S512x128 : S_.BroadcastsInDim S512x128 (![] : Fin 0 → Fin S512x128.rank)
  reducesTo_S512x128_S_d0_1 : S512x128.ReducesTo [0, 1] S_
  h_S_ : 0 < S_.numel
  bcast_S_S256x512 : S_.BroadcastsInDim S256x512 (![] : Fin 0 → Fin S256x512.rank)
  reducesTo_S256x512_S_d0_1 : S256x512.ReducesTo [0, 1] S_
  bcast_S_S512 : S_.BroadcastsInDim S512 (![] : Fin 0 → Fin S512.rank)
  reducesTo_S512_S_d0 : S512.ReducesTo [0] S_
  bcast_S_S512x1 : S_.BroadcastsInDim S512x1 (![] : Fin 0 → Fin S512x1.rank)
  reducesTo_S512x1_S_d0_1 : S512x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S512x1 .f32) (main_arg5 : FVec F S1 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512x1 .f32 := Host.absf main_arg4
  let main_cst_6 : FVec F S_ .f32 := constant S_ .f32 0x7F800000#32
  let main_v20 : FVec F S512x1 .f32 := broadcastInDim S512x1 ![] bcast_S_S512x1 main_cst_6
  let main_v21 : IVec S512x1 1 := cmpf .olt main_v19 main_v20
  let main_c_7 : IVec S_ 1 := constantI S_ 1 1#1
  let main_v22 : IVec S_ 1 := (fun x v => Host.reduce IntOp.andi x v reducesTo_S512x1_S_d0_1 h_S_) main_v21 main_c_7
  let main_v23 : IVec S_ 1 := andi main_v18 main_v22
  let main_v24 : FVec F S1 .f32 := Host.absf main_arg5
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  main_v28

def fn {F : FTy → Type} [FloatOps F] (main_arg0 : FVec F S512x128 .f32) (main_arg1 : FVec F S512x128 .f32) (main_arg2 : FVec F S256x512 .f32) (main_arg3 : FVec F S512 .f32) (main_arg4 : FVec F S512x1 .f32) (main_arg5 : FVec F S1 .f32) : IVec S_ 1 :=
  let main_v0 : FVec F S512x128 .f32 := Host.absf main_arg0
  let main_cst : FVec F S_ .f32 := constant S_ .f32 0x7F800000#32
  let main_v1 : FVec F S512x128 .f32 := broadcastInDim S512x128 ![] bcast_S_S512x128 main_cst
  let main_v2 : IVec S512x128 1 := cmpf .olt main_v0 main_v1
  let main_c : IVec S_ 1 := constantI S_ 1 1#1
  let main_v3 : IVec S_ 1 := (fun x v => Host.reduce IntOp.andi x v reducesTo_S512x128_S_d0_1 h_S_) main_v2 main_c
  let main_v4 : FVec F S512x128 .f32 := Host.absf main_arg1
  let main_cst_0 : FVec F S_ .f32 := constant S_ .f32 0x7F800000#32
  let main_v5 : FVec F S512x128 .f32 := broadcastInDim S512x128 ![] bcast_S_S512x128 main_cst_0
  let main_v6 : IVec S512x128 1 := cmpf .olt main_v4 main_v5
  let main_c_1 : IVec S_ 1 := constantI S_ 1 1#1
  let main_v7 : IVec S_ 1 := (fun x v => Host.reduce IntOp.andi x v reducesTo_S512x128_S_d0_1 h_S_) main_v6 main_c_1
  let main_v8 : IVec S_ 1 := andi main_v3 main_v7
  let main_v9 : FVec F S256x512 .f32 := Host.absf main_arg2
  let main_cst_2 : FVec F S_ .f32 := constant S_ .f32 0x7F800000#32
  let main_v10 : FVec F S256x512 .f32 := broadcastInDim S256x512 ![] bcast_S_S256x512 main_cst_2
  let main_v11 : IVec S256x512 1 := cmpf .olt main_v9 main_v10
  let main_c_3 : IVec S_ 1 := constantI S_ 1 1#1
  let main_v12 : IVec S_ 1 := (fun x v => Host.reduce IntOp.andi x v reducesTo_S256x512_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_v13 main_v16
-- ==== Kernel.lean ====
abbrev S512x128 : Shape := ⟨2, ![512, 128]⟩
abbrev S256x512 : Shape := ⟨2, ![256, 512]⟩
abbrev S512 : Shape := ⟨1, ![512]⟩
abbrev S512x1 : Shape := ⟨2, ![512, 1]⟩
abbrev S1 : Shape := ⟨1, ![1]⟩
abbrev S128x512 : Shape := ⟨2, ![128, 512]⟩
abbrev S1x512 : Shape := ⟨2, ![1, 512]⟩
abbrev S1x1 : Shape := ⟨2, ![1, 1]⟩
abbrev S512x512 : Shape := ⟨2, ![512, 512]⟩
abbrev S64x512 : Shape := ⟨2, ![64, 512]⟩
abbrev S64x128 : Shape := ⟨2, ![64, 128]⟩
abbrev S1x128 : Shape := ⟨2, ![1, 128]⟩
abbrev S128x128 : Shape := ⟨2, ![128, 128]⟩
abbrev S64x1x128 : Shape := ⟨3, ![64, 1, 128]⟩
abbrev S1x128x128 : Shape := ⟨3, ![1, 128, 128]⟩
abbrev S64x128x128 : Shape := ⟨3, ![64, 128, 128]⟩
abbrev S1x1x128 : Shape := ⟨3, ![1, 1, 128]⟩

abbrev nBuf : Space → Nat
  | .hbm => 14
  | .vmem => 15
  | .smem => 0
  | _ => 0

abbrev bufTy : (tb : Table) → Fin (tcTables nBuf tb) → BufTy
  | .hbm, ⟨0, _⟩ => ⟨S512x128, .f32⟩
  | .hbm, ⟨1, _⟩ => ⟨S512x128, .f32⟩
  | .hbm, ⟨2, _⟩ => ⟨S256x512, .f32⟩
  | .hbm, ⟨3, _⟩ => ⟨S512, .f32⟩
  | .hbm, ⟨4, _⟩ => ⟨S512x1, .f32⟩
  | .hbm, ⟨5, _⟩ => ⟨S1, .f32⟩
  | .hbm, ⟨6, _⟩ => ⟨S128x512, .f32⟩
  | .hbm, ⟨7, _⟩ => ⟨S128x512, .f32⟩
  | .hbm, ⟨8, _⟩ => ⟨S1x512, .f32⟩
  | .hbm, ⟨9, _⟩ => ⟨S1x512, .f32⟩
  | .hbm, ⟨10, _⟩ => ⟨S1x1, .f32⟩
  | .hbm, ⟨11, _⟩ => ⟨S512x512, .f32⟩
  | .hbm, ⟨12, _⟩ => ⟨S512x512, .f32⟩
  | .hbm, ⟨13, _⟩ => ⟨S512x512, .f32⟩
  | .local _ .vmem, ⟨0, _⟩ => ⟨S512x128, .f32⟩
  | .local _ .vmem, ⟨1, _⟩ => ⟨S512x128, .f32⟩
  | .local _ .vmem, ⟨2, _⟩ => ⟨S128x512, .f32⟩
  | .local _ .vmem, ⟨3, _⟩ => ⟨S128x512, .f32⟩
  | .local _ .vmem, ⟨4, _⟩ => ⟨S512x512, .f32⟩
  | .local _ .vmem, ⟨5, _⟩ => ⟨S512x512, .f32⟩
  | .local _ .vmem, ⟨6, _⟩ => ⟨S64x512, .f32⟩
  | .local _ .vmem, ⟨7, _⟩ => ⟨S64x512, .f32⟩
  | .local _ .vmem, ⟨8, _⟩ => ⟨S128x512, .f32⟩
  | .local _ .vmem, ⟨9, _⟩ => ⟨S128x512, .f32⟩
  | .local _ .vmem, ⟨10, _⟩ => ⟨S1x512, .f32⟩
  | .local _ .vmem, ⟨11, _⟩ => ⟨S1x512, .f32⟩
  | .local _ .vmem, ⟨12, _⟩ => ⟨S1x1, .f32⟩
  | .local _ .vmem, ⟨13, _⟩ => ⟨S64x128, .f32⟩
  | .local _ .vmem, ⟨14, _⟩ => ⟨S64x128, .f32⟩
  | _, _ => ⟨S512x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v6 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem5_1 : DmaSem sig := 14

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S512x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev grid1 : Pipeline.Grid := ⟨2, ![8, 4], ![false, false]⟩

def k1_mult1 : BitVec 32 :=
  let c0_i32 : BitVec 32 := 0#32
  let c128_i32 : BitVec 32 := 128#32
  let v1 : BitVec 32 := Scalar.muli c0_i32 c128_i32
  v1
def k1_off1 (c0_i32 : BitVec 32) : Fin 2 → Nat :=
  let c0 : Index := 0#32
  let c128_i32 : BitVec 32 := 128#32
  let v1 : BitVec 32 := Scalar.muli c0_i32 c128_i32
  let v2 : BitVec 32 := v1
  let v3 : Index := Scalar.indexCast v2
  ![0, v3.toNat]
def k1_off2 (c0_i32 : BitVec 32) : Fin 2 → Nat :=
  let c0_0 : Index := 0#32
  let c128_i32 : BitVec 32 := 128#32
  let v1 : BitVec 32 := Scalar.muli c0_i32 c128_i32
  let v2 : BitVec 32 := v1
  let v6 : Index := Scalar.indexCast v2
  ![0, v6.toNat]
def k1_off3 (c0_i32 : BitVec 32) : Fin 2 → Nat :=
  let c0_1 : Index := 0#32
  let c128_i32 : BitVec 32 := 128#32
  let v1 : BitVec 32 := Scalar.muli c0_i32 c128_i32
  let v2 : BitVec 32 := v1
  let v11 : Index := Scalar.indexCast v2
  ![0, v11.toNat]
def k1_mult2 : BitVec 32 :=
  let c1_i32 : BitVec 32 := 1#32
  let c128_i32_5 : BitVec 32 := 128#32
  let v29 : BitVec 32 := Scalar.muli c1_i32 c128_i32_5
  v29
def k1_mult3 : BitVec 32 :=
  let c2_i32 : BitVec 32 := 2#32
  let c128_i32_12 : BitVec 32 := 128#32
  let v57 : BitVec 32 := Scalar.muli c2_i32 c128_i32_12
  v57
def k1_mult4 : BitVec 32 :=
  let c3_i32 : BitVec 32 := 3#32
  let c128_i32_19 : BitVec 32 := 128#32
  let v85 : BitVec 32 := Scalar.muli c3_i32 c128_i32_19
  v85
def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S64x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S128x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 1 → Memref sig .tc .vmem S1x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S1x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S64x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

class Facts₀ : Prop where
  slices_S256x512_S128x512_0_0 : S256x512.Slices ![0, 0] S128x512
  slices_S256x512_S128x512_128_0 : S256x512.Slices ![128, 0] S128x512
  shapeCasts_S512_S1x512 : S512.ShapeCasts S1x512
  shapeCasts_S512x1_S1x512 : S512x1.ShapeCasts S1x512
  shapeCasts_S1_S1x1 : S1.ShapeCasts S1x1
  inb_S512x128_S512x128_0_0 : ∀ a, (![0, 0] : Fin 2 → Nat) a + S512x128.size a ≤ S512x128.size a
  h_S512x128 : 0 < S512x128.numel
  bitsLt_bf16_f32 : FTy.bits .bf16 < FTy.bits .f32
  inb_S128x512_S128x512_0_0 : ∀ a, (![0, 0] : Fin 2 → Nat) a + S128x512.size a ≤ S128x512.size a
  h_S128x512 : 0 < S128x512.numel
  shapeCasts_S128x512_S128x512 : S128x512.ShapeCasts S128x512
  inb_S512x512_S512x512_0_0 : ∀ a, (![0, 0] : Fin 2 → Nat) a + S512x512.size a ≤ S512x512.size a
  h_S512x512 : 0 < S512x512.numel
  h_S64x128 : 0 < S64x128.numel
  shapeCasts_S64x128_S64x128 : S64x128.ShapeCasts S64x128
  h_S1x128 : 0 < S1x128.numel
  shapeCasts_S1x128_S1x128 : S1x128.ShapeCasts S1x128
  broadcasts_S1x128_S64x128 : S1x128.Broadcasts S64x128
  h_S128x128 : 0 < S128x128.numel
  shapeCasts_S128x128_S128x128 : S128x128.ShapeCasts S128x128
  shapeCasts_S64x128_S64x1x128 : S64x128.ShapeCasts S64x1x128
  shapeCasts_S128x128_S1x128x128 : S128x128.ShapeCasts S1x128x128
  broadcasts_S64x1x128_S64x128x128 : S64x1x128.Broadcasts S64x128x128
  broadcasts_S1x128x128_S64x128x128 : S1x128x128.Broadcasts S64x128x128
  shapeCasts_S1x128_S1x1x128 : S1x128.ShapeCasts S1x1x128
  broadcasts_S1x1x128_S64x128x128 : S1x1x128.Broadcasts S64x128x128
  reduces_S64x128x128_S64x128 : S64x128x128.Reduces [2] S64x128
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S64x128 : S1x1.Broadcasts S64x128
  inb_S64x128_S64x128_0_0 : ∀ a, (![0, 0] : Fin 2 → Nat) a + S64x128.size a ≤ S64x128.size a
  dot_S512x128_S128x512_S512x512_1_0_0_1_n_n_wf : DotDims.WF S512x128 S128x512 S512x512 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S512x128.size a ≤ S512x128.size a
  hwx0_0 : ∀ i : grid0.Coords, EltTy.bits .f32 = 32 ∨ (Rect.block (s := S512x128) S512x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S512x128.size a
  hwx0_1 : ∀ i : grid0.Coords, EltTy.bits .f32 = 32 ∨ (Rect.block (s := S512x128) S512x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x512.size a ≤ S128x512.size a
  hwx0_2 : ∀ i : grid0.Coords, EltTy.bits .f32 = 32 ∨ (Rect.block (s := S128x512) S128x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x512.size a ≤ S128x512.size a
  hwx0_3 : ∀ i : grid0.Coords, EltTy.bits .f32 = 32 ∨ (Rect.block (s := S128x512) S128x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S512x512.size a
  hwx0_4 : ∀ i : grid0.Coords, EltTy.bits .f32 = 32 ∨ (Rect.block (s := S512x512) S512x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x512.size a ≤ S512x512.size a
  hwx0_5 : ∀ i : grid0.Coords, EltTy.bits .f32 = 32 ∨ (Rect.block (s := S512x512) S512x512.size (cc0_transform_5 i) (hinb0_5 i)).WholeWords (EltTy.packing .f32)
  hrank1 : 0 < grid1.rank
  k1_mult1_dvd : 128 ∣ k1_mult1.toNat
  k1_off1_inb : ∀ (r : Fin 4), ∀ a, (k1_off1 (BitVec.ofNat 32 r.val)) a + S64x128.size a ≤ S64x512.size a
  k1_off2_inb : ∀ (r : Fin 4), ∀ a, (k1_off2 (BitVec.ofNat 32 r.val)) a + S1x128.size a ≤ S1x512.size a
  k1_off3_inb : ∀ (r : Fin 4), ∀ a, (k1_off3 (BitVec.ofNat 32 r.val)) a + S128x128.size a ≤ S128x512.size a
  k1_mult2_dvd : 128 ∣ k1_mult2.toNat
  k1_mult3_dvd : 128 ∣ k1_mult3.toNat
  k1_mult4_dvd : 128 ∣ k1_mult4.toNat
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S64x512.size a ≤ S512x512.size a
  hwx1_0 : ∀ i : grid1.Coords, EltTy.bits .f32 = 32 ∨ (Rect.block (s := S512x512) S64x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S128x512.size a ≤ S512x512.size a
  hwx1_1 : ∀ i : grid1.Coords, EltTy.bits .f32 = 32 ∨ (Rect.block (s := S512x512) S128x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x512.size a
  hwx1_2 : ∀ i : grid1.Coords, EltTy.bits .f32 = 32 ∨ (Rect.block (s := S1x512) S1x512.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x512.size a ≤ S1x512.size a
  hwx1_3 : ∀ i : grid1.Coords, EltTy.bits .f32 = 32 ∨ (Rect.block (s := S1x512) S1x512.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1.size a ≤ S1x1.size a
  hwx1_4 : ∀ i : grid1.Coords, EltTy.bits .f32 = 32 ∨ (Rect.block (s := S1x1) S1x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S64x128.size a ≤ S512x512.size a
  hwx1_5 : ∀ i : grid1.Coords, EltTy.bits .f32 = 32 ∨ (Rect.block (s := S512x512) S64x128.size (cc1_transform_5 i) (hinb1_5 i)).WholeWords (EltTy.packing .f32)

variable [Facts₀]

def dot_S512x128_S128x512_S512x512_1_0_0_1_n_n : DotDims S512x128 S128x512 S512x512 where
  lhsContracting := [1]
  rhsContracting := [0]
  lhsNonContracting := [0]
  rhsNonContracting := [1]
  lhsBatch := []
  rhsBatch := []
  wf := dot_S512x128_S128x512_S512x512_1_0_0_1_n_n_wf

abbrev win0_0 : Pipeline.Window sig grid0 :=
  Pipeline.Window.ofSpec (Memref.whole main_arg0) S512x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S128x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S128x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5_0) S512x512.size cc0_transform_4 reads0_4 true true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5_1) S512x512.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v5_0) S64x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5_1) S128x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v3) S1x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v4) S1x1.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v6) S64x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S512x128 : Shape := ⟨2, ![512, 128]⟩
abbrev S256x512 : Shape := ⟨2, ![256, 512]⟩
abbrev S512 : Shape := ⟨1, ![512]⟩
abbrev S512x1 : Shape := ⟨2, ![512, 1]⟩
abbrev S1 : Shape := ⟨1, ![1]⟩
abbrev S1x512x128 : Shape := ⟨3, ![1, 512, 128]⟩
abbrev S512x512x128 : Shape := ⟨3, ![512, 512, 128]⟩
abbrev S512x1x128 : Shape := ⟨3, ![512, 1, 128]⟩
abbrev S512x512x256 : Shape := ⟨3, ![512, 512, 256]⟩
abbrev S262144x256 : Shape := ⟨2, ![262144, 256]⟩
abbrev S262144x512 : Shape := ⟨2, ![262144, 512]⟩
abbrev S1x512 : Shape := ⟨2, ![1, 512]⟩
abbrev S_ : Shape := ⟨0, ![]⟩
abbrev S262144x1 : Shape := ⟨2, ![262144, 1]⟩
abbrev S1x1 : Shape := ⟨2, ![1, 1]⟩
abbrev S512x512 : Shape := ⟨2, ![512, 512]⟩

abbrev nBuf : Space → Nat
  | .hbm => 25
  | .vmem => 0
  | .smem => 0
  | _ => 0

abbrev bufTy : (tb : Table) → Fin (tcTables nBuf tb) → BufTy
  | .hbm, ⟨0, _⟩ => ⟨S512x128, .f32⟩
  | .hbm, ⟨1, _⟩ => ⟨S512x128, .f32⟩
  | .hbm, ⟨2, _⟩ => ⟨S256x512, .f32⟩
  | .hbm, ⟨3, _⟩ => ⟨S512, .f32⟩
  | .hbm, ⟨4, _⟩ => ⟨S512x1, .f32⟩
  | .hbm, ⟨5, _⟩ => ⟨S1, .f32⟩
  | .hbm, ⟨6, _⟩ => ⟨S1x512x128, .f32⟩
  | .hbm, ⟨7, _⟩ => ⟨S512x512x128, .f32⟩
  | .hbm, ⟨8, _⟩ => ⟨S512x1x128, .f32⟩
  | .hbm, ⟨9, _⟩ => ⟨S512x512x128, .f32⟩
  | .hbm, ⟨10, _⟩ => ⟨S512x512x256, .f32⟩
  | .hbm, ⟨11, _⟩ => ⟨S262144x256, .f32⟩
  | .hbm, ⟨12, _⟩ => ⟨S262144x512, .f32⟩
  | .hbm, ⟨13, _⟩ => ⟨S1x512, .f32⟩
  | .hbm, ⟨14, _⟩ => ⟨S262144x512, .f32⟩
  | .hbm, ⟨15, _⟩ => ⟨S262144x512, .f32⟩
  | .hbm, ⟨16, _⟩ => ⟨S_, .f32⟩
  | .hbm, ⟨17, _⟩ => ⟨S262144x512, .f32⟩
  | .hbm, ⟨18, _⟩ => ⟨S262144x512, .f32⟩
  | .hbm, ⟨19, _⟩ => ⟨S262144x1, .f32⟩
  | .hbm, ⟨20, _⟩ => ⟨S1x1, .f32⟩
  | .hbm, ⟨21, _⟩ => ⟨S262144x1, .f32⟩
  | .hbm, ⟨22, _⟩ => ⟨S262144x1, .f32⟩
  | .hbm, ⟨23, _⟩ => ⟨S512x512, .f32⟩
  | .hbm, ⟨24, _⟩ => ⟨S512x512, .f32⟩
  | _, _ => ⟨S512x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_call0_cst : Ref sig .tc := ⟨.hbm, 16, rfl⟩
abbrev main_call0_v0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩

abbrev nD : Nat := 1
abbrev τ : Topo := Topo.v7x

variable {F : FTy → Type} [FloatOps F]

class Facts₀ : Prop where
  bcast_S512x128_S1x512x128_1_2 : S512x128.BroadcastsInDim S1x512x128 (![1, 2] : Fin 2 → Fin S1x512x128.rank)
  bcast_S1x512x128_S512x512x128_0_1_2 : S1x512x128.BroadcastsInDim S512x512x128 (![0, 1, 2] : Fin 3 → Fin S512x512x128.rank)
  bcast_S512x128_S512x1x128_0_2 : S512x128.BroadcastsInDim S512x1x128 (![0, 2] : Fin 2 → Fin S512x1x128.rank)
  bcast_S512x1x128_S512x512x128_0_1_2 : S512x1x128.BroadcastsInDim S512x512x128 (![0, 1, 2] : Fin 3 → Fin S512x512x128.rank)
  concatenates_S512x512x128_S512x512x128_S512x512x256_d2 : Shape.Concatenates [S512x512x128, S512x512x128] S512x512x256 2
  shapeCasts_S512x512x256_S262144x256 : S512x512x256.ShapeCasts S262144x256
  bcast_S512_S1x512_1 : S512.BroadcastsInDim S1x512 (![1] : Fin 1 → Fin S1x512.rank)
  bcast_S1x512_S262144x512_0_1 : S1x512.BroadcastsInDim S262144x512 (![0, 1] : Fin 2 → Fin S262144x512.rank)
  bcast_S_S262144x512 : S_.BroadcastsInDim S262144x512 (![] : Fin 0 → Fin S262144x512.rank)
  bcast_S1_S1x1_1 : S1.BroadcastsInDim S1x1 (![1] : Fin 1 → Fin S1x1.rank)
  bcast_S1x1_S262144x1_0_1 : S1x1.BroadcastsInDim S262144x1 (![0, 1] : Fin 2 → Fin S262144x1.rank)
  shapeCasts_S262144x1_S512x512 : S262144x1.ShapeCasts S512x512
  transposes_S512x512_S512x512_1_0 : S512x512.Transposes [1, 0] S512x512
  dot_S262144x256_S256x512_S262144x512_1_0_0_1_n_n_wf : DotDims.WF S262144x256 S256x512 S262144x512 [1] [0] [0] [1] [] []
  dot_S262144x512_S512x1_S262144x1_1_0_0_1_n_n_wf : DotDims.WF S262144x512 S512x1 S262144x1 [1] [0] [0] [1] [] []

variable [Facts₀]

def dot_S262144x256_S256x512_S262144x512_1_0_0_1_n_n : DotDims S262144x256 S256x512 S262144x512 where
  lhsContracting := [1]
  rhsContracting := [0]
  lhsNonContracting := [0]
  rhsNonContracting := [1]
  lhsBatch := []
  rhsBatch := []
  wf := dot_S262144x256_S256x512_S262144x512_1_0_0_1_n_n_wf
def dot_S262144x512_S512x1_S262144x1_1_0_0_1_n_n : DotDims S262144x512 S512x1 S262144x1 where
  lhsContracting := [1]
  rhsContracting := [0]
  lhsNonContracting := [0]
  rhsNonContracting := [1]
  lhsBatch := []
  rhsBatch := []
  wf := dot_S262144x512_S512x1_S262144x1_1_0_0_1_n_n_wf

class Facts : Prop extends Facts₀ where

variable [Facts]
-- ==== Proof.KernelRun.lean ====
/-
  The idealized kernel's run with its result named.

  Every weakly fair execution of the program from a launch memory ends, nothing faulting, in a state whose result
  array holds what the second pallas_call's write-backs leave in it (the fold of the program's segments from the launch
  memory, read at the result's buffer) and whose argument arrays hold what they held at launch.  This is the run over
  the program's three segments, a stretch of host operations and two kernel regions, read at one more buffer than the
  arguments.
-/
import proofs.«132372_j86620900426436_2_alg».proof.Proof.Gen.KernelIdeal.Frame

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result array ends at the last segment boundary's contents, the arguments as launched. -/
theorem run_result : θ_run defs (onTc (τ := τ) (main (F := F))) ⟨m, fun _ => 0, ρ⟩ (fun r => ∀ c : Dev nD,
      r.2.mem ((c.tc : Thread nD τ).loc main_v6) = W3 m ρ c (Proc.devRef .tc main_v6)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v6 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c),
       (h c _ (mem_uc main_arg5 (by decide))).trans (W3_main_arg5 m ρ c)⟩)

end Cert.KernelIdeal.Whole

end
-- ==== Proof.LibMatmul2.lean ====
/-
  A plain matrix product read at an index.

  A `tpu.matmul` with dimension numbers "contract axis 1 of the left operand with axis 0 of the right, no batch axes"
  of an [A, K] and a [K, B] matrix into the zero accumulator is, at the ideal values and at output position (p, q),
  the sum over k < K of left(p, k) · right(k, q): the contraction shape has the one axis of extent K, and the operand
  indices at output (p, q) and contraction position k are (p, k) and (k, q).
-/
import Idealize.ShloMosaic.PureOps.Ideal.Laws
import Idealize.ShloMosaic.Lib.ValueIdx

noncomputable section

namespace Cert.Lib

open Idealize.ShloMosaic Idealize.ShloMosaic.ValueIdx

variable {A K B : ℕ} {φ₁ φ₂ : FTy}

/-- The dimension numbers of a plain matrix product: rows × contraction times contraction × columns. -/
abbrev plain2 (wf : DotDims.WF ⟨2, ![A, K]⟩ ⟨2, ![K, B]⟩ ⟨2, ![A, B]⟩ [1] [0] [0] [1] [] []) :
    DotDims ⟨2, ![A, K]⟩ ⟨2, ![K, B]⟩ ⟨2, ![A, B]⟩ := ⟨[1], [0], [0], [1], [], [], wf⟩

/-- Its contraction shape has one axis, -/
theorem plain2_rank (wf : DotDims.WF ⟨2, ![A, K]⟩ ⟨2, ![K, B]⟩ ⟨2, ![A, B]⟩ [1] [0] [0] [1] [] []) :
    (plain2 wf).contr.rank = 1 := rfl

/-- of extent `K`. -/
theorem plain2_size (wf : DotDims.WF ⟨2, ![A, K]⟩ ⟨2, ![K, B]⟩ ⟨2, ![A, B]⟩ [1] [0] [0] [1] [] []) :
    (plain2 wf).contr.size ⟨0, by rw [plain2_rank]; exact Nat.one_pos⟩ = K := rfl

/-- The product into the zero accumulator at (p, q) is `∑ k, l (p, k) * r (k, q)`. -/
theorem matmul2_zero_apply (wf : DotDims.WF ⟨2, ![A, K]⟩ ⟨2, ![K, B]⟩ ⟨2, ![A, B]⟩ [1] [0] [0] [1] [] [])
    (l : FVec Ideal ⟨2, ![A, K]⟩ φ₁) (r : FVec Ideal ⟨2, ![K, B]⟩ φ₂) (p : Fin A) (q : Fin B) :
    matmul (plain2 wf) none l r (constant ⟨2, ![A, B]⟩ .f32 0x00000000#32) (ix2 p q)
      = ∑ k : Fin K, l (ix2 p k) * r (ix2 k q) := by
  refine (Ideal.matmul_constant_zero_apply (plain2 wf) none l r (ix2 p q)).trans ?_
  refine (Equiv.sum_comp (contrEquiv1 (plain2 wf) K (plain2_rank wf) (plain2_size wf)).symm _).symm.trans ?_
  refine Finset.sum_congr rfl fun k _ => ?_
  have hk := contrEquiv1_symm_val (plain2 wf) K (plain2_rank wf) (plain2_size wf) k
  have hl : (plain2 wf).lhsIdx (ix2 p q) ((contrEquiv1 (plain2 wf) K (plain2_rank wf) (plain2_size wf)).symm k) = ix2 p k := by
    funext a; apply Fin.ext
    match a with
    | ⟨0, _⟩ => simp [DotDims.lhsIdx]; rfl
    | ⟨1, _⟩ => exact (DotDims.lhsIdx_val_of_single (plain2 wf) (cl := 1) rfl (ix2 p q) _).trans hk
  have hr : (plain2 wf).rhsIdx (ix2 p q) ((contrEquiv1 (plain2 wf) K (plain2_rank wf) (plain2_size wf)).symm k) = ix2 k q := by
    funext a; apply Fin.ext
    match a with
    | ⟨0, _⟩ => exact (DotDims.rhsIdx_val_of_single (plain2 wf) (cr := 0) rfl (ix2 p q) _).trans hk
    | ⟨1, _⟩ => simp [DotDims.rhsIdx]; rfl
  show l _ * r _ = _
  rw [hl, hr]

end Cert.Lib

end
-- ==== Proof.Projections.lean ====
/-
  What the projection kernel leaves in its two result arrays.

  The first pallas_call has one grid point and every window's block is its whole array, so each result array ends
  holding the body's stored value of the whole operand arrays as the region finds them: the first result is the matrix
  product of the first operand with the third, the second result the product of the second operand with the fourth
  (each operand rounded to bf16 on the way in, which at the ideal values changes nothing).  At the ideal values the
  product at `(a, h)` is the sum over the 128 contracted positions of the operands' products.
-/
import proofs.«132372_j86620900426436_2_alg».proof.Proof.Gen.KernelIdeal.Frame
import proofs.«132372_j86620900426436_2_alg».proof.Proof.LibMatmul2
import Idealize.ShloMosaic.Lib.Pipeline.Value

set_option maxRecDepth 16384

noncomputable section

namespace Cert.KernelIdeal.Proj

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable {F : FTy → Type} [FloatOps F]
variable (V : (c : Dev nD) → (b : Ref sig .tc) → Buf (Elt F) ((c : Thread nD τ).loc b))

theorem zero2 : (![0, 0] : Fin 2 → Nat) = fun _ => 0 := funext fun a => by fin_cases a <;> rfl

/-- Every window's block index is zero on both axes at every grid point: each block is its whole array. -/
theorem index_zero : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0 :=
  (by decide +kernel : ∀ t : Fin grid0.N, _)

/-- The block of an input window is the window's whole array. -/
theorem iblk_0 (c : Dev nD) (t : Fin cfg0.N) : iblk0 V c 0 t = V c main_arg0 := by
  obtain ⟨e0, e1, -⟩ := index_zero t
  funext j
  show V c main_arg0 (((cfg0.win 0).blk t).view.emb j) = V c main_arg0 j
  refine congrArg _ (funext fun a => Fin.ext ?_)
  match a with
  | ⟨0, _⟩ => show win0_0.index t (0 : Fin 2) * 512 + 1 * (j 0).val = (j 0).val; rw [e0]; omega
  | ⟨1, _⟩ => show win0_0.index t (1 : Fin 2) * 128 + 1 * (j 1).val = (j 1).val; rw [e1]; omega

theorem iblk_1 (c : Dev nD) (t : Fin cfg0.N) : iblk0 V c 1 t = V c main_arg1 := by
  obtain ⟨-, -, e0, e1, -⟩ := index_zero t
  funext j
  show V c main_arg1 (((cfg0.win 1).blk t).view.emb j) = V c main_arg1 j
  refine congrArg _ (funext fun a => Fin.ext ?_)
  match a with
  | ⟨0, _⟩ => show win0_1.index t (0 : Fin 2) * 512 + 1 * (j 0).val = (j 0).val; rw [e0]; omega
  | ⟨1, _⟩ => show win0_1.index t (1 : Fin 2) * 128 + 1 * (j 1).val = (j 1).val; rw [e1]; omega

theorem iblk_2 (c : Dev nD) (t : Fin cfg0.N) : iblk0 V c 2 t = V c main_v0 := by
  obtain ⟨-, -, -, -, e0, e1, -⟩ := index_zero t
  funext j
  show V c main_v0 (((cfg0.win 2).blk t).view.emb j) = V c main_v0 j
  refine congrArg _ (funext fun a => Fin.ext ?_)
  match a with
  | ⟨0, _⟩ => show win0_2.index t (0 : Fin 2) * 128 + 1 * (j 0).val = (j 0).val; rw [e0]; omega
  | ⟨1, _⟩ => show win0_2.index t (1 : Fin 2) * 512 + 1 * (j 1).val = (j 1).val; rw [e1]; omega

theorem iblk_3 (c : Dev nD) (t : Fin cfg0.N) : iblk0 V c 3 t = V c main_v1 := by
  obtain ⟨-, -, -, -, -, -, e0, e1, -⟩ := index_zero t
  funext j
  show V c main_v1 (((cfg0.win 3).blk t).view.emb j) = V c main_v1 j
  refine congrArg _ (funext fun a => Fin.ext ?_)
  match a with
  | ⟨0, _⟩ => show win0_3.index t (0 : Fin 2) * 128 + 1 * (j 0).val = (j 0).val; rw [e0]; omega
  | ⟨1, _⟩ => show win0_3.index t (1 : Fin 2) * 512 + 1 * (j 1).val = (j 1).val; rw [e1]; omega

/-- A whole array read through an output window's block is the array. -/
theorem read_4 (t : Fin cfg0.N) (G : S512x512.Idx → Elt F .f32) : ((cfg0.win 4).blk t).view.read (Elt F) G = G := by
  obtain ⟨-, -, -, -, -, -, -, -, e0, e1, -⟩ := index_zero t
  funext j
  show G (((cfg0.win 4).blk t).view.emb j) = G j
  refine congrArg _ (funext fun a => Fin.ext ?_)
  match a with
  | ⟨0, _⟩ => show win0_4.index t (0 : Fin 2) * 512 + 1 * (j 0).val = (j 0).val; rw [e0]; omega
  | ⟨1, _⟩ => show win0_4.index t (1 : Fin 2) * 512 + 1 * (j 1).val = (j 1).val; rw [e1]; omega

theorem read_5 (t : Fin cfg0.N) (G : S512x512.Idx → Elt F .f32) : ((cfg0.win 5).blk t).view.read (Elt F) G = G := by
  obtain ⟨-, -, -, -, -, -, -, -, -, -, e0, e1⟩ := index_zero t
  funext j
  show G (((cfg0.win 5).blk t).view.emb j) = G j
  refine congrArg _ (funext fun a => Fin.ext ?_)
  match a with
  | ⟨0, _⟩ => show win0_5.index t (0 : Fin 2) * 512 + 1 * (j 0).val = (j 0).val; rw [e0]; omega
  | ⟨1, _⟩ => show win0_5.index t (1 : Fin 2) * 512 + 1 * (j 1).val = (j 1).val; rw [e1]; omega

/-- What the one point writes back to the first result: the product of the whole first and third operands. -/
theorem flushed_4 (c : Dev nD) (t : Fin cfg0.N) :
    (dat0 V c).flushed 4 t = ((cfg0.win 4).blk t).view.read (Elt F) (k0_pay1 (V c main_arg0) (V c main_v0)) := by
  rw [read_4]
  show (cfg0.win 4).cut (grid0.coords t) ((dat0 V c).after 4 t) = _
  rw [after0_4]
  unfold out0_4
  rw [View.canon_unit_zero zero2]
  simp only [View.ld_unit_zero (S := S512x128) zero2, View.ld_unit_zero (S := S128x512) zero2]
  rw [iblk_0, iblk_2]
  rfl

theorem flushed_5 (c : Dev nD) (t : Fin cfg0.N) :
    (dat0 V c).flushed 5 t = ((cfg0.win 5).blk t).view.read (Elt F) (k0_pay2 (V c main_arg1) (V c main_v1)) := by
  rw [read_5]
  show (cfg0.win 5).cut (grid0.coords t) ((dat0 V c).after 5 t) = _
  rw [after0_5]
  unfold out0_5
  rw [View.canon_unit_zero zero2]
  simp only [View.ld_unit_zero (S := S512x128) zero2, View.ld_unit_zero (S := S128x512) zero2]
  rw [iblk_1, iblk_3]
  rfl

/-- The one point's block of a result is the whole result array. -/
theorem cover_4 (i : S512x512.Idx) : ∃ t : Fin cfg0.N, (cfg0.win 4).flush t = true ∧ i ∈ ((cfg0.win 4).blk t).view.set := by
  refine ⟨t0_0, flush0_4 t0_0, ?_⟩
  obtain ⟨-, -, -, -, -, -, -, -, e0, e1, -⟩ := index_zero t0_0
  show i ∈ ((View.whole main_v5_0).slice (win0_4.rect t0_0)).set
  rw [View.set_slice_whole, Rect.mem_set_unit]
  intro a
  match a with
  | ⟨0, _⟩ =>
    show win0_4.index t0_0 (0 : Fin 2) * 512 ≤ (i 0).val ∧ (i 0).val < win0_4.index t0_0 (0 : Fin 2) * 512 + 512
    have h0 : (i 0).val < 512 := (i 0).isLt; rw [e0]; omega
  | ⟨1, _⟩ =>
    show win0_4.index t0_0 (1 : Fin 2) * 512 ≤ (i 1).val ∧ (i 1).val < win0_4.index t0_0 (1 : Fin 2) * 512 + 512
    have h1 : (i 1).val < 512 := (i 1).isLt; rw [e1]; omega

theorem cover_5 (i : S512x512.Idx) : ∃ t : Fin cfg0.N, (cfg0.win 5).flush t = true ∧ i ∈ ((cfg0.win 5).blk t).view.set := by
  refine ⟨t0_0, flush0_5 t0_0, ?_⟩
  obtain ⟨-, -, -, -, -, -, -, -, -, -, e0, e1⟩ := index_zero t0_0
  show i ∈ ((View.whole main_v5_1).slice (win0_5.rect t0_0)).set
  rw [View.set_slice_whole, Rect.mem_set_unit]
  intro a
  match a with
  | ⟨0, _⟩ =>
    show win0_5.index t0_0 (0 : Fin 2) * 512 ≤ (i 0).val ∧ (i 0).val < win0_5.index t0_0 (0 : Fin 2) * 512 + 512
    have h0 : (i 0).val < 512 := (i 0).isLt; rw [e0]; omega
  | ⟨1, _⟩ =>
    show win0_5.index t0_0 (1 : Fin 2) * 512 ≤ (i 1).val ∧ (i 1).val < win0_5.index t0_0 (1 : Fin 2) * 512 + 512
    have h1 : (i 1).val < 512 := (i 1).isLt; rw [e1]; omega

/-- The first result array after the region: the product of the first operand with the third. -/
theorem result_4 (c : Dev nD) : (dat0 V c).arrAt 4 cfg0.N = k0_pay1 (V c main_arg0) (V c main_v0) :=
  (dat0 V c).arrAt_eq_of_cover 4 _ (fun t _ => flushed_4 V c t) cover_4

/-- The second result array after the region: the product of the second operand with the fourth. -/
theorem result_5 (c : Dev nD) : (dat0 V c).arrAt 5 cfg0.N = k0_pay2 (V c main_arg1) (V c main_v1) :=
  (dat0 V c).arrAt_eq_of_cover 5 _ (fun t _ => flushed_5 V c t) cover_5

/-! ## The products at the ideal values -/

/-- The first product at `(a, h)`: the sum over the contracted positions. -/
theorem pay1_apply (X : Vec Ideal S512x128 .f32) (Wm : Vec Ideal S128x512 .f32) (a : Fin 512) (h : Fin 512) :
    k0_pay1 (F := Ideal) X Wm (ix2 a h) = ∑ d : Fin 128, X (ix2 a d) * Wm (ix2 d h) := by
  unfold k0_pay1
  refine (Cert.Lib.matmul2_zero_apply (A := 512) (K := 128) (B := 512) dot_S512x128_S128x512_S512x512_1_0_0_1_n_n_wf
    (truncf .bf16 X bitsLt_bf16_f32) (truncf .bf16 (shapeCast S128x512 Wm shapeCasts_S128x512_S128x512) bitsLt_bf16_f32) a h).trans ?_
  refine Finset.sum_congr rfl fun d _ => ?_
  rw [truncf_apply, truncf_apply, shapeCast_self]

theorem pay2_apply (X : Vec Ideal S512x128 .f32) (Wm : Vec Ideal S128x512 .f32) (a : Fin 512) (h : Fin 512) :
    k0_pay2 (F := Ideal) X Wm (ix2 a h) = ∑ d : Fin 128, X (ix2 a d) * Wm (ix2 d h) := by
  unfold k0_pay2
  refine (Cert.Lib.matmul2_zero_apply (A := 512) (K := 128) (B := 512) dot_S512x128_S128x512_S512x512_1_0_0_1_n_n_wf
    (truncf .bf16 X bitsLt_bf16_f32) (truncf .bf16 (shapeCast S128x512 Wm shapeCasts_S128x512_S128x512) bitsLt_bf16_f32) a h).trans ?_
  refine Finset.sum_congr rfl fun d _ => ?_
  rw [truncf_apply, truncf_apply, shapeCast_self]

end Cert.KernelIdeal.Proj

end
-- ==== Proof.LibOuterStack.lean ====
/-
  A stack of all pairs of rows, read at an index given by coordinates.

  A value computed for every pair (row `p` of one matrix, row `q` of another) against the `n` entries of those rows
  lives in an `[a, b, n]` array.  Three operands meet there.  The first matrix, `[a, n]`, is cast to `[a, 1, n]` and
  repeated along the middle axis; the second, `[b, n]`, is cast to `[1, b, n]` and repeated along the first axis; a
  table of `n` entries, `[1, n]`, is cast to `[1, 1, n]` and repeated along both.  Read at `(p, q, k)` they are the first
  matrix at `(p, k)`, the second at `(q, k)` and the table at `k`.  A sum over the last axis of the stack, read at
  `(p, q)`, is the sum over `k` of the stack at `(p, q, k)`.  Beside them, a one-entry matrix `[1, 1]` repeated to
  `[a, b]` reads that entry everywhere.
-/
import Idealize.ShloMosaic.Lib.ValueLayout
import Idealize.ShloMosaic.PureOps.Ideal.Laws

namespace Cert.Lib

open Idealize.ShloMosaic Idealize.ShloMosaic.ValueIdx

variable {α : Type}

/-- An `[a, n]` matrix cast to `[a, 1, n]` reads, at `(p, u, k)`, the matrix at `(p, k)`. -/
theorem shapeCast_an_a1n_apply {a n : ℕ} (x : (⟨2, ![a, n]⟩ : Shape).Idx → α)
    (h : (⟨2, ![a, n]⟩ : Shape).ShapeCasts ⟨3, ![a, 1, n]⟩) (p : Fin a) (u : Fin 1) (k : Fin n) :
    shapeCast ⟨3, ![a, 1, n]⟩ x h (ix3 p u k) = x (ix2 p k) :=
  shapeCast_apply x h _ _ (by
    have hu : u.val = 0 := by omega
    rw [Shape.rowMajor_val_two, Shape.rowMajor_val_three]
    show p.val * n + k.val = (p.val * 1 + u.val) * n + k.val
    rw [hu, Nat.mul_one, Nat.add_zero])

/-- An `[a, 1, n]` array repeated along its middle axis to `[a, b, n]` reads, at `(p, q, k)`, the operand at `(p, 0, k)`. -/
theorem broadcastTo_a1n_abn_apply {a b n : ℕ} (x : (⟨3, ![a, 1, n]⟩ : Shape).Idx → α)
    (h : (⟨3, ![a, 1, n]⟩ : Shape).Broadcasts ⟨3, ![a, b, n]⟩) (p : Fin a) (q : Fin b) (k : Fin n) :
    broadcastTo ⟨3, ![a, b, n]⟩ x h (ix3 p q k) = x (ix3 p (0 : Fin 1) k) := by
  refine broadcastTo_apply x h (ix3 p q k) (ix3 p (0 : Fin 1) k) fun ax => ?_
  match ax with
  | ⟨0, _⟩ =>
    show p.val = if a = 1 then 0 else p.val
    split
    · have := p.isLt; omega
    · rfl
  | ⟨1, _⟩ => rfl
  | ⟨2, _⟩ =>
    show k.val = if n = 1 then 0 else k.val
    split
    · have := k.isLt; omega
    · rfl

/-- A `[1, b, n]` array repeated along its first axis to `[a, b, n]` reads, at `(p, q, k)`, the operand at `(0, q, k)`. -/
theorem broadcastTo_1bn_abn_apply {a b n : ℕ} (x : (⟨3, ![1, b, n]⟩ : Shape).Idx → α)
    (h : (⟨3, ![1, b, n]⟩ : Shape).Broadcasts ⟨3, ![a, b, n]⟩) (p : Fin a) (q : Fin b) (k : Fin n) :
    broadcastTo ⟨3, ![a, b, n]⟩ x h (ix3 p q k) = x (ix3 (0 : Fin 1) q k) := by
  refine broadcastTo_apply x h (ix3 p q k) (ix3 (0 : Fin 1) q k) fun ax => ?_
  match ax with
  | ⟨0, _⟩ => rfl
  | ⟨1, _⟩ =>
    show q.val = if b = 1 then 0 else q.val
    split
    · have := q.isLt; omega
    · rfl
  | ⟨2, _⟩ =>
    show k.val = if n = 1 then 0 else k.val
    split
    · have := k.isLt; omega
    · rfl

/-- A `[1, 1, n]` array repeated along its first two axes to `[a, b, n]` reads, at `(p, q, k)`, the operand at `(0, 0, k)`. -/
theorem broadcastTo_11n_abn_apply {a b n : ℕ} (x : (⟨3, ![1, 1, n]⟩ : Shape).Idx → α)
    (h : (⟨3, ![1, 1, n]⟩ : Shape).Broadcasts ⟨3, ![a, b, n]⟩) (p : Fin a) (q : Fin b) (k : Fin n) :
    broadcastTo ⟨3, ![a, b, n]⟩ x h (ix3 p q k) = x (ix3 (0 : Fin 1) (0 : Fin 1) k) := by
  refine broadcastTo_apply x h (ix3 p q k) (ix3 (0 : Fin 1) (0 : Fin 1) k) fun ax => ?_
  match ax with
  | ⟨0, _⟩ => rfl
  | ⟨1, _⟩ => rfl
  | ⟨2, _⟩ =>
    show k.val = if n = 1 then 0 else k.val
    split
    · have := k.isLt; omega
    · rfl

/-- A one-entry matrix repeated to `[a, b]` reads that entry everywhere. -/
theorem broadcastTo_11_ab_apply {a b : ℕ} (x : (⟨2, ![1, 1]⟩ : Shape).Idx → α)
    (h : (⟨2, ![1, 1]⟩ : Shape).Broadcasts ⟨2, ![a, b]⟩) (p : Fin a) (q : Fin b) :
    broadcastTo ⟨2, ![a, b]⟩ x h (ix2 p q) = x (ix2 (0 : Fin 1) (0 : Fin 1)) := by
  refine broadcastTo_apply x h (ix2 p q) (ix2 (0 : Fin 1) (0 : Fin 1)) fun ax => ?_
  match ax with
  | ⟨0, _⟩ => rfl
  | ⟨1, _⟩ => rfl

/-- Over the stack's last axis, the index above `(p, q)` with coordinate `k` inserted is `(p, q, k)`. -/
theorem lift_last_ix2 {a b n : ℕ} (h : (⟨3, ![a, b, n]⟩ : Shape).Reduces [2] ⟨2, ![a, b]⟩) (p : Fin a) (q : Fin b) (k : Fin n) :
    h.lift (ix2 p q) k = ix3 p q k := by
  funext c
  apply Fin.ext
  match c with
  | ⟨0, _⟩ => rfl
  | ⟨1, _⟩ => rfl
  | ⟨2, _⟩ => rfl

/-- At the ideal values, a sum over the last axis of an `[a, b, n]` stack, read at `(p, q)`, is the sum over `k` of the
    stack at `(p, q, k)`. -/
theorem laneSum_apply {a b n : ℕ} {φ : FTy} (src : FVec Ideal ⟨3, ![a, b, n]⟩ φ) (acc : BitVec φ.bits)
    (h : (⟨3, ![a, b, n]⟩ : Shape).Reduces [2] ⟨2, ![a, b]⟩) (hφ : FKind.Formats φ) (hacc : acc = FKind.add.neutral φ hφ)
    (p : Fin a) (q : Fin b) :
    multiReduction .add [2] ⟨2, ![a, b]⟩ src acc h hφ hacc (ix2 p q) = ∑ k : Fin n, src (ix3 p q k) := by
  refine (Ideal.multiReduction_add_single src acc h hφ hacc (ix2 p q)).trans ?_
  exact Finset.sum_congr rfl fun k _ => congrArg src (lift_last_ix2 h p q k)

end Cert.Lib
-- ==== Proof.PairBody.lean ====
/-
  What the pairwise-score kernel's body leaves in its output block, as one pure term of the blocks it reads, and that
  term read at an entry.

  The body walks the 512 hidden lanes in four chunks of 128.  For a chunk it reads 128 lanes of the 64-row block of
  the first projection, of the 128-row block of the second projection, of the bias row and of the weight row; adds
  the bias to the first block; forms, for every pair (row `p` of the first block, row `q` of the second) and every
  lane `k`, the sum of the two rows' entries, its maximum with zero, and the product with the weight at `k`; and sums
  over the lanes.  The four chunk sums are added from the left starting from a zero block, and the one-entry offset
  block is added last.  So entry `(p, q)` of the output block is
    ((((0 + S 0) + S 1) + S 2) + S 3) + offset,
    S ch = ∑ k < 128, max ((first (p, 128·ch + k) + bias (128·ch + k)) + second (q, 128·ch + k)) 0 · weight (128·ch + k).
-/
import proofs.«132372_j86620900426436_2_alg».proof.Proof.Gen.KernelIdeal.Frame
import proofs.«132372_j86620900426436_2_alg».proof.Proof.LibOuterStack
import Idealize.ShloMosaic.Lib.Pipeline.Value

set_option maxRecDepth 16384

noncomputable section

namespace Cert.KernelIdeal.Pair

open Idealize.ShloMosaic Idealize.ShloMosaic.TcCoe Idealize.ShloMosaic.Tactic Idealize.ShloMosaic.ValueIdx
open Idealize.SL Idealize.SL.Sem
open Cert.KernelIdeal Cert.KernelIdeal.Gen

variable {F : FTy → Type} [FloatOps F]

/-! ## One chunk of lanes -/

/-- One chunk's contribution: from 128 lanes of the first block `pxc`, the bias row `b1c`, the second block `pyc` and
    the weight row `w2c`, the block whose entry `(p, q)` sums, over the lanes, the weighted positive part of
    `(pxc (p, ·) + b1c) + pyc (q, ·)`. -/
def chunkTerm (pxc : Vec F S64x128 .f32) (b1c : Vec F S1x128 .f32) (pyc : Vec F S128x128 .f32) (w2c : Vec F S1x128 .f32) :
    FVec F S64x128 .f32 :=
  have v5 : FVec F S64x128 .f32 := shapeCast S64x128 pxc shapeCasts_S64x128_S64x128
  have v8 : FVec F S1x128 .f32 := shapeCast S1x128 b1c shapeCasts_S1x128_S1x128
  have v9 : FVec F S64x128 .f32 := broadcastTo S64x128 v8 broadcasts_S1x128_S64x128
  have v10 : FVec F S64x128 .f32 := addf v5 v9
  have v13 : FVec F S128x128 .f32 := shapeCast S128x128 pyc shapeCasts_S128x128_S128x128
  have v16 : FVec F S1x128 .f32 := shapeCast S1x128 w2c shapeCasts_S1x128_S1x128
  have v17 : FVec F S64x1x128 .f32 := shapeCast S64x1x128 v10 shapeCasts_S64x128_S64x1x128
  have v18 : FVec F S1x128x128 .f32 := shapeCast S1x128x128 v13 shapeCasts_S128x128_S1x128x128
  have v19 : FVec F S64x128x128 .f32 := broadcastTo S64x128x128 v17 broadcasts_S64x1x128_S64x128x128
  have v20 : FVec F S64x128x128 .f32 := broadcastTo S64x128x128 v18 broadcasts_S1x128x128_S64x128x128
  have v21 : FVec F S64x128x128 .f32 := addf v19 v20
  have cst_3 : F .f32 := Scalar.ofBits .f32 0x00000000#32
  have v22 : FVec F S64x128x128 .f32 := broadcast S64x128x128 cst_3
  have v23 : FVec F S64x128x128 .f32 := maximumf v21 v22
  have v24 : FVec F S1x1x128 .f32 := shapeCast S1x1x128 v16 shapeCasts_S1x128_S1x1x128
  have v25 : FVec F S64x128x128 .f32 := broadcastTo S64x128x128 v24 broadcasts_S1x1x128_S64x128x128
  have v26 : FVec F S64x128x128 .f32 := mulf v23 v25
  multiReduction .add [2] S64x128 v26 0x00000000#32 reduces_S64x128x128_S64x128 (.inl rfl) rfl

/-- The chunk starting at lane `o`, from the four staged blocks: each block's 128 lanes from `o`. -/
def chunkAt (o : ℕ)
    (h0 : ∀ a, (![0, o] : Fin 2 → ℕ) a + S64x128.size a ≤ S64x512.size a)
    (h1 : ∀ a, (![0, o] : Fin 2 → ℕ) a + S128x128.size a ≤ S128x512.size a)
    (h2 : ∀ a, (![0, o] : Fin 2 → ℕ) a + S1x128.size a ≤ S1x512.size a)
    (x0 : Vec F S64x512 .f32) (x1 : Vec F S128x512 .f32) (x2 x3 : Vec F S1x512 .f32) : FVec F S64x128 .f32 :=
  chunkTerm (View.ld x0 (Rect.unit (s := S64x512) ![0, o] S64x128.size h0))
    (View.ld x2 (Rect.unit (s := S1x512) ![0, o] S1x128.size h2))
    (View.ld x1 (Rect.unit (s := S128x512) ![0, o] S128x128.size h1))
    (View.ld x3 (Rect.unit (s := S1x512) ![0, o] S1x128.size h2))

/-! ## The whole body -/

/-- The one-entry offset block repeated over the output block. -/
def offsetTerm (x4c : Vec F S1x1 .f32) : FVec F S64x128 .f32 :=
  broadcastTo S64x128 (shapeCast S1x1 x4c shapeCasts_S1x1_S1x1) broadcasts_S1x1_S64x128

/-- The output block from the staged blocks: the four chunks added from the left onto a zero block, then the offset. -/
def scoreBlock (x0 : Vec F S64x512 .f32) (x1 : Vec F S128x512 .f32) (x2 x3 : Vec F S1x512 .f32) (x4 : Vec F S1x1 .f32) :
    FVec F S64x128 .f32 :=
  addf
    (addf
      (addf
        (addf
          (addf (broadcast S64x128 (Scalar.ofBits .f32 0x00000000#32 : F .f32))
            (chunkAt 0 (by decide) (by decide) (by decide) x0 x1 x2 x3))
          (chunkAt 128 (by decide) (by decide) (by decide) x0 x1 x2 x3))
        (chunkAt 256 (by decide) (by decide) (by decide) x0 x1 x2 x3))
      (chunkAt 384 (by decide) (by decide) (by decide) x0 x1 x2 x3))
    (offsetTerm (View.ld x4 (Rect.unit (s := S1x1) ![0, 0] S1x1.size inb_S1x1_S1x1_0_0)))

theorem zero2 : (![0, 0] : Fin 2 → Nat) = fun _ => 0 := funext fun a => by fin_cases a <;> rfl

/-- What the run of the body leaves in the output's staging buffer is `scoreBlock` of the input blocks: its one store
    covers the buffer, and the stored value, with the run's named loads opened, is that term. -/
theorem out_eq (c : Dev nD) (i : grid1.Coords) (arg2 : Memref sig .tc .vmem S64x512 .f32) (harg2 : arg2.IsWhole)
    (arg3 : Memref sig .tc .vmem S128x512 .f32) (harg3 : arg3.IsWhole) (arg4 : Memref sig .tc .vmem S1x512 .f32) (harg4 : arg4.IsWhole)
    (arg5 : Memref sig .tc .vmem S1x512 .f32) (harg5 : arg5.IsWhole) (arg6 : Memref sig .tc .vmem S1x1 .f32) (harg6 : arg6.IsWhole)
    (arg7 : Memref sig .tc .vmem S64x128 .f32) (harg7 : arg7.IsWhole)
    (x0 : Vec F S64x512 .f32) (x1 : Vec F S128x512 .f32) (x2 : Vec F S1x512 .f32) (x3 : Vec F S1x512 .f32) (x4 : Vec F S1x1 .f32) :
    out1_A_5 c i arg2 harg2 arg3 harg3 arg4 harg4 arg5 harg5 arg6 harg6 arg7 harg7 x0 x1 x2 x3 x4 = scoreBlock x0 x1 x2 x3 x4 := by
  unfold out1_A_5
  rw [View.read_writes_eq_canon _ _ _ (cover1_A_5 c i arg2 harg2 arg3 harg3 arg4 harg4 arg5 harg5 arg6 harg6 arg7 harg7 x0 x1 x2 x3 x4)]
  unfold kernelRun1_A
  dsimp only
  sl_unfold_run_names
  rw [View.canon_unit_zero zero2]
  simp only [View.readAt_eq_ld, harg2.read_unread, harg3.read_unread, harg4.read_unread, harg5.read_unread, harg6.read_unread]
  rfl

end Cert.KernelIdeal.Pair

end
-- ==== Proof.SumSplit.lean ====
/-
  Cutting a finite sum into consecutive runs.

  A sum over the positions `0 … n-1` cut at `a` is the sum over the first `a` positions plus the sum over the
  remaining `b = n - a`, the second run re-indexed from its start.  Cutting `512 = 4 · 128` positions three times
  gives four runs of 128, added from the left starting at zero: the order in which a kernel that walks the hidden
  axis in four chunks accumulates its partial sums.  Only associativity and commutativity of the addition are used,
  so the statements hold in any commutative monoid, the extended reals included.
-/
import Mathlib.Algebra.BigOperators.Fin

namespace Cert.Pairwise

open Finset

variable {M : Type*} [AddCommMonoid M]

/-- A sum over `Fin n`, cut at `a` with `a + b = n`: the first `a` terms, then the last `b` re-indexed from `a`. -/
theorem sum_cut {a b n : ℕ} (h : a + b = n) (g : Fin n → M) :
    ∑ i, g i = ∑ i : Fin a, g ⟨i.val, by have := i.isLt; omega⟩ + ∑ j : Fin b, g ⟨a + j.val, by have := j.isLt; omega⟩ := by
  subst h
  rw [Fin.sum_univ_add]
  rfl

/-- Position `k` of run `ch` among four runs of 128 in `0 … 511`. -/
def lane (ch : Fin 4) (k : Fin 128) : Fin 512 := ⟨128 * ch.val + k.val, by have := ch.isLt; have := k.isLt; omega⟩

theorem lane_val (ch : Fin 4) (k : Fin 128) : (lane ch k).val = 128 * ch.val + k.val := rfl

/-- A sum over 512 positions is the four runs' sums added from the left, starting from zero. -/
theorem sum_four (g : Fin 512 → M) :
    ∑ h, g h = (((0 + ∑ k, g (lane 0 k)) + ∑ k, g (lane 1 k)) + ∑ k, g (lane 2 k)) + ∑ k, g (lane 3 k) := by
  rw [sum_cut (a := 384) (b := 128) rfl g,
    sum_cut (a := 256) (b := 128) rfl (fun i : Fin 384 => g ⟨i.val, by have := i.isLt; omega⟩),
    sum_cut (a := 128) (b := 128) rfl (fun i : Fin 256 => g ⟨i.val, by have := i.isLt; omega⟩), zero_add]
  refine congrArg₂ (· + ·) (congrArg₂ (· + ·) (congrArg₂ (· + ·) ?_ ?_) ?_) ?_ <;>
    exact Finset.sum_congr rfl fun k _ => congrArg g (Fin.ext (by simp [lane]))

/-- A sum over 256 positions is the sum over the first 128 plus the sum over the last 128. -/
theorem sum_halves (g : Fin 256 → M) :
    ∑ e, g e = ∑ d : Fin 128, g ⟨d.val, by have := d.isLt; omega⟩ + ∑ d : Fin 128, g ⟨128 + d.val, by have := d.isLt; omega⟩ :=
  sum_cut (a := 128) (b := 128) rfl g

end Cert.Pairwise
-- ==== Proof.PairValue.lean ====
/-
  The pairwise-score kernel's output block read at an entry, at the ideal values.

  Entry `(p, q)` of the block the body leaves, written over the staged blocks `x0` (64 rows of the first
  projection), `x1` (128 rows of the second), `x2` (the bias row), `x3` (the weight row) and `x4` (the offset), is
    ((((0 + S 0) + S 1) + S 2) + S 3) + x4 (0, 0),
    S ch = ∑ k < 128, max ((x0 (p, ℓ) + x2 (0, ℓ)) + x1 (q, ℓ)) 0 · x3 (0, ℓ)   with ℓ = 128·ch + k:
  the layout operations each read one entry of their operand, the lane reduction is a sum over the lane, and a load
  of 128 lanes from lane `o` reads the staged block `o` lanes further on.
-/
import proofs.«132372_j86620900426436_2_alg».proof.Proof.PairBody
import proofs.«132372_j86620900426436_2_alg».proof.Proof.SumSplit

set_option maxRecDepth 16384

noncomputable section

namespace Cert.KernelIdeal.Pair

open Idealize.ShloMosaic Idealize.ShloMosaic.TcCoe Idealize.ShloMosaic.ValueIdx
open Idealize.SL.Sem
open Cert.KernelIdeal Cert.KernelIdeal.Gen Cert.Pairwise Cert.Lib

/-- One chunk at `(p, q)`: the sum over its 128 lanes of the weighted positive part. -/
theorem chunkTerm_apply (pxc : Vec Ideal S64x128 .f32) (b1c : Vec Ideal S1x128 .f32) (pyc : Vec Ideal S128x128 .f32)
    (w2c : Vec Ideal S1x128 .f32) (p : Fin 64) (q : Fin 128) :
    chunkTerm (F := Ideal) pxc b1c pyc w2c (ix2 p q)
      = ∑ k : Fin 128, max ((pxc (ix2 p k) + b1c (ix2 (0 : Fin 1) k)) + pyc (ix2 q k)) 0 * w2c (ix2 (0 : Fin 1) k) := by
  unfold chunkTerm
  refine (laneSum_apply _ _ _ _ _ p q).trans ?_
  refine Finset.sum_congr rfl fun k _ => ?_
  rw [mulf_apply, maximumf_apply, addf_apply, broadcast_apply, broadcastTo_a1n_abn_apply, shapeCast_an_a1n_apply,
    addf_apply, shapeCast_self, broadcastTo_1b_ab_apply, shapeCast_self, broadcastTo_1bn_abn_apply,
    shapeCast_ab_1ab_apply, shapeCast_self, broadcastTo_11n_abn_apply, shapeCast_ab_1ab_apply, shapeCast_self]
  show max _ (Ideal.ofBits .f32 0x00000000#32) * _ = _
  rw [Ideal.ofBits_zero_f32]

/-- A load of 128 lanes from lane `o` of a staged block of 512 lanes reads, at `(p, k)`, the block at `(p, o + k)`. -/
theorem ld_lanes {Val : EltTy → Type} {e : EltTy} {r : ℕ} (o : ℕ) (X : (⟨2, ![r, 512]⟩ : Shape).Idx → Val e)
    (h : ∀ a, (![0, o] : Fin 2 → ℕ) a + (![r, 128] : Fin 2 → ℕ) a ≤ (⟨2, ![r, 512]⟩ : Shape).size a) (p : Fin r) (k : Fin 128) :
    View.ld X (Rect.unit (s := ⟨2, ![r, 512]⟩) ![0, o] ![r, 128] h) (ix2 p k)
      = X (ix2 p (⟨o + k.val, by have h1 : o + 128 ≤ 512 := h 1; have := k.isLt; omega⟩ : Fin 512)) := by
  refine congrArg X (funext fun a => Fin.ext ?_)
  match a with
  | ⟨0, _⟩ => show 0 + 1 * p.val = p.val; omega
  | ⟨1, _⟩ => show o + 1 * k.val = o + k.val; omega

/-- The chunk starting at lane `128·ch`, at `(p, q)`, over the staged blocks. -/
theorem chunkAt_apply (ch : Fin 4) (o : ℕ) (ho : o = 128 * ch.val)
    (h0 : ∀ a, (![0, o] : Fin 2 → ℕ) a + S64x128.size a ≤ S64x512.size a)
    (h1 : ∀ a, (![0, o] : Fin 2 → ℕ) a + S128x128.size a ≤ S128x512.size a)
    (h2 : ∀ a, (![0, o] : Fin 2 → ℕ) a + S1x128.size a ≤ S1x512.size a)
    (x0 : Vec Ideal S64x512 .f32) (x1 : Vec Ideal S128x512 .f32) (x2 x3 : Vec Ideal S1x512 .f32) (p : Fin 64) (q : Fin 128) :
    chunkAt (F := Ideal) o h0 h1 h2 x0 x1 x2 x3 (ix2 p q)
      = ∑ k : Fin 128, max ((x0 (ix2 p (lane ch k)) + x2 (ix2 (0 : Fin 1) (lane ch k))) + x1 (ix2 q (lane ch k))) 0
          * x3 (ix2 (0 : Fin 1) (lane ch k)) := by
  subst ho
  unfold chunkAt
  rw [chunkTerm_apply]
  refine Finset.sum_congr rfl fun k _ => ?_
  rw [ld_lanes (128 * ch.val) x0 h0 p k, ld_lanes (128 * ch.val) x2 h2 (0 : Fin 1) k,
    ld_lanes (128 * ch.val) x1 h1 q k, ld_lanes (128 * ch.val) x3 h2 (0 : Fin 1) k]
  rfl

/-- The offset block at `(p, q)`: its one entry. -/
theorem offsetTerm_apply (x4c : Vec Ideal S1x1 .f32) (p : Fin 64) (q : Fin 128) :
    offsetTerm (F := Ideal) x4c (ix2 p q) = x4c (ix2 (0 : Fin 1) (0 : Fin 1)) := by
  unfold offsetTerm
  rw [broadcastTo_11_ab_apply, shapeCast_self]

/-- The whole block at `(p, q)`. -/
theorem scoreBlock_apply (x0 : Vec Ideal S64x512 .f32) (x1 : Vec Ideal S128x512 .f32) (x2 x3 : Vec Ideal S1x512 .f32)
    (x4 : Vec Ideal S1x1 .f32) (p : Fin 64) (q : Fin 128) :
    scoreBlock (F := Ideal) x0 x1 x2 x3 x4 (ix2 p q)
      = ((((0 + ∑ k : Fin 128, max ((x0 (ix2 p (lane 0 k)) + x2 (ix2 (0 : Fin 1) (lane 0 k))) + x1 (ix2 q (lane 0 k))) 0 * x3 (ix2 (0 : Fin 1) (lane 0 k)))
            + ∑ k : Fin 128, max ((x0 (ix2 p (lane 1 k)) + x2 (ix2 (0 : Fin 1) (lane 1 k))) + x1 (ix2 q (lane 1 k))) 0 * x3 (ix2 (0 : Fin 1) (lane 1 k)))
            + ∑ k : Fin 128, max ((x0 (ix2 p (lane 2 k)) + x2 (ix2 (0 : Fin 1) (lane 2 k))) + x1 (ix2 q (lane 2 k))) 0 * x3 (ix2 (0 : Fin 1) (lane 2 k)))
            + ∑ k : Fin 128, max ((x0 (ix2 p (lane 3 k)) + x2 (ix2 (0 : Fin 1) (lane 3 k))) + x1 (ix2 q (lane 3 k))) 0 * x3 (ix2 (0 : Fin 1) (lane 3 k)))
          + x4 (ix2 (0 : Fin 1) (0 : Fin 1)) := by
  unfold scoreBlock
  rw [addf_apply, addf_apply, addf_apply, addf_apply, addf_apply, broadcast_apply,
    chunkAt_apply 0 0 rfl, chunkAt_apply 1 128 rfl, chunkAt_apply 2 256 rfl, chunkAt_apply 3 384 rfl,
    offsetTerm_apply, View.ld_unit_zero zero2]
  show (((((Ideal.ofBits .f32 0x00000000#32) + _) + _) + _) + _) + _ = _
  rw [Ideal.ofBits_zero_f32]

end Cert.KernelIdeal.Pair

end
-- ==== Proof.PairBlocks.lean ====
/-
  What the pairwise-score kernel leaves in the result array, at the ideal values.

  The second pallas_call walks an 8 × 4 grid.  At point `(i, j)` it stages rows `64·i … 64·i + 63` of the first
  projection, rows `128·j … 128·j + 127` of the second, the whole bias row, weight row and offset, and writes back
  the `64 × 128` block `(i, j)` of the result.  Entry `(p, q)` of that block is the body's value at the staged rows
  `p` and `q`, so it is the value `pairEntry` of the arrays at rows `64·i + p` and `128·j + q`: every written-back
  block is a block of ONE function of the region's input arrays, and the 32 blocks tile the result.
-/
import proofs.«132372_j86620900426436_2_alg».proof.Proof.PairValue

set_option maxRecDepth 16384

noncomputable section

namespace Cert.KernelIdeal.Pair

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.Pairwise

/-- One hidden lane's contribution to the pair (row `a` of `PX`, row `c` of `PY`). -/
def pairUnit (PX PY : S512x512.Idx → EReal) (B1 W2r : S1x512.Idx → EReal) (a c ℓ : Fin 512) : EReal :=
  max ((PX (ix2 a ℓ) + B1 (ix2 (0 : Fin 1) ℓ)) + PY (ix2 c ℓ)) 0 * W2r (ix2 (0 : Fin 1) ℓ)

/-- The result entry for the pair (row `a` of `PX`, row `c` of `PY`): four runs of lanes accumulated from zero, then the offset. -/
def pairEntry (PX PY : S512x512.Idx → EReal) (B1 W2r : S1x512.Idx → EReal) (B2 : S1x1.Idx → EReal) (a c : Fin 512) : EReal :=
  ((((0 + ∑ k, pairUnit PX PY B1 W2r a c (lane 0 k)) + ∑ k, pairUnit PX PY B1 W2r a c (lane 1 k))
      + ∑ k, pairUnit PX PY B1 W2r a c (lane 2 k)) + ∑ k, pairUnit PX PY B1 W2r a c (lane 3 k))
    + B2 (ix2 (0 : Fin 1) (0 : Fin 1))

/-- The whole result array as a function of the region's five input arrays. -/
def pairArray (PX PY : S512x512.Idx → EReal) (B1 W2r : S1x512.Idx → EReal) (B2 : S1x1.Idx → EReal) : S512x512.Idx → EReal :=
  fun i => pairEntry PX PY B1 W2r B2 (i 0) (i 1)

theorem pairArray_ix2 (PX PY : S512x512.Idx → EReal) (B1 W2r : S1x512.Idx → EReal) (B2 : S1x1.Idx → EReal) (a c : Fin 512) :
    pairArray PX PY B1 W2r B2 (ix2 a c) = pairEntry PX PY B1 W2r B2 a c := rfl

variable (V : (c : Dev nD) → (b : Ref sig .tc) → Buf (Elt Ideal) ((c : Thread nD τ).loc b))

/-- The printed index maps over the grid: the first projection's block moves with the result's rows, the second's with
    the result's columns, the three small operands stay put, and the result's block indices stay in range. -/
theorem index_facts : ∀ t : Fin cfg1.N,
    win1_0.index t (0 : Fin 2) = win1_5.index t (0 : Fin 2) ∧ win1_0.index t (1 : Fin 2) = 0
    ∧ win1_1.index t (0 : Fin 2) = win1_5.index t (1 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) ≤ 7 ∧ win1_5.index t (1 : Fin 2) ≤ 3 :=
  (by decide +kernel : ∀ t : Fin grid1.N, _)

/-- Every block of the result is some point's. -/
theorem index_onto : ∀ (q0 : Fin 8) (q1 : Fin 4), ∃ t : Fin cfg1.N, win1_5.index t = ![q0.val, q1.val] :=
  (by decide +kernel : ∀ (q0 : Fin 8) (q1 : Fin 4), ∃ t : Fin grid1.N, win1_5.index t = ![q0.val, q1.val])

/-! ## The staged blocks read through the arrays -/

theorem blk_0 (c : Dev nD) (t : Fin cfg1.N) (p : Fin 64) (ℓ : Fin 512) (a : Fin 512)
    (ha : a.val = win1_5.index t (0 : Fin 2) * 64 + p.val) : iblk1 V c 0 t (ix2 p ℓ) = V c main_v5_0 (ix2 a ℓ) := by
  obtain ⟨e0, e1, -⟩ := index_facts t
  show V c main_v5_0 (((cfg1.win 0).blk t).view.emb (ix2 p ℓ)) = V c main_v5_0 (ix2 a ℓ)
  refine congrArg _ (funext fun ax => Fin.ext ?_)
  match ax with
  | ⟨0, _⟩ => show win1_0.index t (0 : Fin 2) * 64 + 1 * p.val = a.val; rw [e0, ha]; omega
  | ⟨1, _⟩ => show win1_0.index t (1 : Fin 2) * 512 + 1 * ℓ.val = ℓ.val; rw [e1]; omega

theorem blk_1 (c : Dev nD) (t : Fin cfg1.N) (q : Fin 128) (ℓ : Fin 512) (b : Fin 512)
    (hb : b.val = win1_5.index t (1 : Fin 2) * 128 + q.val) : iblk1 V c 1 t (ix2 q ℓ) = V c main_v5_1 (ix2 b ℓ) := by
  obtain ⟨-, -, e0, e1, -⟩ := index_facts t
  show V c main_v5_1 (((cfg1.win 1).blk t).view.emb (ix2 q ℓ)) = V c main_v5_1 (ix2 b ℓ)
  refine congrArg _ (funext fun ax => Fin.ext ?_)
  match ax with
  | ⟨0, _⟩ => show win1_1.index t (0 : Fin 2) * 128 + 1 * q.val = b.val; rw [e0, hb]; omega
  | ⟨1, _⟩ => show win1_1.index t (1 : Fin 2) * 512 + 1 * ℓ.val = ℓ.val; rw [e1]; omega

theorem blk_2 (c : Dev nD) (t : Fin cfg1.N) (ℓ : Fin 512) : iblk1 V c 2 t (ix2 (0 : Fin 1) ℓ) = V c main_v2 (ix2 (0 : Fin 1) ℓ) := by
  obtain ⟨-, -, -, -, e0, e1, -⟩ := index_facts t
  show V c main_v2 (((cfg1.win 2).blk t).view.emb (ix2 (0 : Fin 1) ℓ)) = V c main_v2 (ix2 (0 : Fin 1) ℓ)
  refine congrArg _ (funext fun ax => Fin.ext ?_)
  match ax with
  | ⟨0, _⟩ => show win1_2.index t (0 : Fin 2) * 1 + 1 * 0 = 0; rw [e0]
  | ⟨1, _⟩ => show win1_2.index t (1 : Fin 2) * 512 + 1 * ℓ.val = ℓ.val; rw [e1]; omega

theorem blk_3 (c : Dev nD) (t : Fin cfg1.N) (ℓ : Fin 512) : iblk1 V c 3 t (ix2 (0 : Fin 1) ℓ) = V c main_v3 (ix2 (0 : Fin 1) ℓ) := by
  obtain ⟨-, -, -, -, -, -, e0, e1, -⟩ := index_facts t
  show V c main_v3 (((cfg1.win 3).blk t).view.emb (ix2 (0 : Fin 1) ℓ)) = V c main_v3 (ix2 (0 : Fin 1) ℓ)
  refine congrArg _ (funext fun ax => Fin.ext ?_)
  match ax with
  | ⟨0, _⟩ => show win1_3.index t (0 : Fin 2) * 1 + 1 * 0 = 0; rw [e0]
  | ⟨1, _⟩ => show win1_3.index t (1 : Fin 2) * 512 + 1 * ℓ.val = ℓ.val; rw [e1]; omega

theorem blk_4 (c : Dev nD) (t : Fin cfg1.N) :
    iblk1 V c 4 t (ix2 (0 : Fin 1) (0 : Fin 1)) = V c main_v4 (ix2 (0 : Fin 1) (0 : Fin 1)) := by
  obtain ⟨-, -, -, -, -, -, -, -, e0, e1, -⟩ := index_facts t
  show V c main_v4 (((cfg1.win 4).blk t).view.emb (ix2 (0 : Fin 1) (0 : Fin 1))) = V c main_v4 (ix2 (0 : Fin 1) (0 : Fin 1))
  refine congrArg _ (funext fun ax => Fin.ext ?_)
  match ax with
  | ⟨0, _⟩ => show win1_4.index t (0 : Fin 2) * 1 + 1 * 0 = 0; rw [e0]
  | ⟨1, _⟩ => show win1_4.index t (1 : Fin 2) * 1 + 1 * 0 = 0; rw [e1]

/-! ## The write-backs and the cover -/

/-- What point `t` writes back is block `t` of `pairArray` of the arrays as the region finds them. -/
theorem flushed_eq (c : Dev nD) (t : Fin cfg1.N) :
    (dat1 V c).flushed 5 t
      = ((cfg1.win 5).blk t).view.read (Elt Ideal)
          (pairArray (V c main_v5_0) (V c main_v5_1) (V c main_v2) (V c main_v3) (V c main_v4)) := by
  show (cfg1.win 5).cut (grid1.coords t) ((dat1 V c).after 5 t) = _
  rw [after1_5]
  unfold outsAt1
  rw [out_eq]
  obtain ⟨-, -, -, -, -, -, -, -, -, -, b0, b1⟩ := index_facts t
  funext j
  obtain ⟨p, q, rfl⟩ : ∃ (p : Fin 64) (q : Fin 128), j = ix2 p q := ⟨j 0, j 1, eq_ix2 j⟩
  have hp := p.isLt
  have hq := q.isLt
  let a : Fin 512 := ⟨win1_5.index t (0 : Fin 2) * 64 + p.val, by omega⟩
  let b : Fin 512 := ⟨win1_5.index t (1 : Fin 2) * 128 + q.val, by omega⟩
  have he : ((cfg1.win 5).blk t).view.emb (ix2 p q) = ix2 a b := by
    funext ax; apply Fin.ext
    match ax with
    | ⟨0, _⟩ => show win1_5.index t (0 : Fin 2) * 64 + 1 * p.val = win1_5.index t (0 : Fin 2) * 64 + p.val; omega
    | ⟨1, _⟩ => show win1_5.index t (1 : Fin 2) * 128 + 1 * q.val = win1_5.index t (1 : Fin 2) * 128 + q.val; omega
  show scoreBlock (F := Ideal) (iblk1 V c 0 t) (iblk1 V c 1 t) (iblk1 V c 2 t) (iblk1 V c 3 t) (iblk1 V c 4 t) (ix2 p q)
    = pairArray (V c main_v5_0) (V c main_v5_1) (V c main_v2) (V c main_v3) (V c main_v4) (((cfg1.win 5).blk t).view.emb (ix2 p q))
  rw [he, pairArray_ix2, scoreBlock_apply]
  unfold pairEntry pairUnit
  simp only [blk_0 V c t p _ a rfl, blk_1 V c t q _ b rfl, blk_2 V c t, blk_3 V c t, blk_4 V c t]

/-- An index of the result is in point `t`'s block iff each coordinate is in the block's range on its axis. -/
theorem mem_blk (t : Fin cfg1.N) (i : S512x512.Idx) :
    i ∈ ((cfg1.win 5).blk t).view.set ↔ ∀ ax : Fin 2, win1_5.index t ax * S64x128.size ax ≤ (i ax).val ∧ (i ax).val < win1_5.index t ax * S64x128.size ax + S64x128.size ax := by
  show i ∈ ((View.whole main_v6).slice (win1_5.rect t)).set ↔ _
  rw [View.set_slice_whole, Rect.mem_set_unit]
  exact Iff.rfl

/-- The blocks tile the result: index `(r, s)` is in the block of the point with block indices `(r / 64, s / 128)`. -/
theorem cover (i : S512x512.Idx) : ∃ t : Fin cfg1.N, (cfg1.win 5).flush t = true ∧ i ∈ ((cfg1.win 5).blk t).view.set := by
  have hi0 : (i 0).val < 512 := (i 0).isLt
  have hi1 : (i 1).val < 512 := (i 1).isLt
  obtain ⟨t, ht⟩ := index_onto ⟨(i 0).val / 64, by omega⟩ ⟨(i 1).val / 128, by omega⟩
  have q0 : win1_5.index t (0 : Fin 2) = (i 0).val / 64 := congrFun ht 0
  have q1 : win1_5.index t (1 : Fin 2) = (i 1).val / 128 := congrFun ht 1
  refine ⟨t, flush1_5 t, ?_⟩
  rw [mem_blk]
  intro ax
  match ax with
  | ⟨0, _⟩ => show win1_5.index t (0 : Fin 2) * 64 ≤ (i 0).val ∧ (i 0).val < win1_5.index t (0 : Fin 2) * 64 + 64; omega
  | ⟨1, _⟩ => show win1_5.index t (1 : Fin 2) * 128 ≤ (i 1).val ∧ (i 1).val < win1_5.index t (1 : Fin 2) * 128 + 128; omega

/-- The result array after the region. -/
theorem result (c : Dev nD) :
    (dat1 V c).arrAt 5 cfg1.N = pairArray (V c main_v5_0) (V c main_v5_1) (V c main_v2) (V c main_v3) (V c main_v4) :=
  (dat1 V c).arrAt_eq_of_cover 5 _ (fun t _ => flushed_eq V c t) cover

end Cert.KernelIdeal.Pair

end
-- ==== Proof.Score.lean ====
/-
  The pairwise score, as one function of the six argument arrays.

  With `x, y : [512, 128]`, `W1 : [256, 512]` (its first 128 rows acting on `x`, its last 128 on `y`), `b1 : [512]`,
  `W2 : [512, 1]` and `b2 : [1]`, the score of the pair (row `a` of `x`, row `c` of `y`) is
    score a c = (∑ h < 512, max ((X a h + b1 h) + Y c h) 0 · W2 h) + b2,
    X a h = ∑ d < 128, x (a, d) · W1 (d, h),     Y c h = ∑ d < 128, y (c, d) · W1 (128 + d, h),
  over the extended reals.  Two rearrangements of it are proved here, both by associativity and commutativity of
  addition alone (so with no finiteness assumption): the hidden sum taken in four runs of 128 lanes accumulated from
  zero, and the two projections taken as ONE sum over the 256 rows of `W1` of the concatenated row.
-/
import proofs.«132372_j86620900426436_2_alg».proof.Proof.SumSplit
import Idealize.ShloMosaic.Lib.ValueIdx
import Mathlib.Data.EReal.Basic

noncomputable section

namespace Cert.Pairwise

open Idealize.ShloMosaic Idealize.ShloMosaic.ValueIdx

/-- Row `a` of `x` against the first 128 rows of `W1`, at hidden lane `h`. -/
def projX (x : (⟨2, ![512, 128]⟩ : Shape).Idx → EReal) (W1 : (⟨2, ![256, 512]⟩ : Shape).Idx → EReal) (a h : Fin 512) : EReal :=
  ∑ d : Fin 128, x (ix2 a d) * W1 (ix2 (⟨d.val, by have := d.isLt; omega⟩ : Fin 256) h)

/-- Row `c` of `y` against the last 128 rows of `W1`, at hidden lane `h`. -/
def projY (y : (⟨2, ![512, 128]⟩ : Shape).Idx → EReal) (W1 : (⟨2, ![256, 512]⟩ : Shape).Idx → EReal) (c h : Fin 512) : EReal :=
  ∑ d : Fin 128, y (ix2 c d) * W1 (ix2 (⟨128 + d.val, by have := d.isLt; omega⟩ : Fin 256) h)

/-- The hidden unit `h` of the pair `(a, c)`, after the positive part, weighted. -/
def unit (x y : (⟨2, ![512, 128]⟩ : Shape).Idx → EReal) (W1 : (⟨2, ![256, 512]⟩ : Shape).Idx → EReal)
    (b1 : (⟨1, ![512]⟩ : Shape).Idx → EReal) (W2 : (⟨2, ![512, 1]⟩ : Shape).Idx → EReal) (a c h : Fin 512) : EReal :=
  max ((projX x W1 a h + b1 (ix1 h)) + projY y W1 c h) 0 * W2 (ix2 h (0 : Fin 1))

/-- The score of the pair (row `a` of `x`, row `c` of `y`). -/
def score (x y : (⟨2, ![512, 128]⟩ : Shape).Idx → EReal) (W1 : (⟨2, ![256, 512]⟩ : Shape).Idx → EReal)
    (b1 : (⟨1, ![512]⟩ : Shape).Idx → EReal) (W2 : (⟨2, ![512, 1]⟩ : Shape).Idx → EReal) (b2 : (⟨1, ![1]⟩ : Shape).Idx → EReal)
    (a c : Fin 512) : EReal :=
  (∑ h : Fin 512, unit x y W1 b1 W2 a c h) + b2 (ix1 (0 : Fin 1))

/-- All the scores: entry `(a, c)` is the score of row `a` of `x` with row `c` of `y`. -/
def scores (x y : (⟨2, ![512, 128]⟩ : Shape).Idx → EReal) (W1 : (⟨2, ![256, 512]⟩ : Shape).Idx → EReal)
    (b1 : (⟨1, ![512]⟩ : Shape).Idx → EReal) (W2 : (⟨2, ![512, 1]⟩ : Shape).Idx → EReal) (b2 : (⟨1, ![1]⟩ : Shape).Idx → EReal) :
    (⟨2, ![512, 512]⟩ : Shape).Idx → EReal :=
  fun i => score x y W1 b1 W2 b2 (i 0) (i 1)

theorem scores_ix2 (x y : (⟨2, ![512, 128]⟩ : Shape).Idx → EReal) (W1 : (⟨2, ![256, 512]⟩ : Shape).Idx → EReal)
    (b1 : (⟨1, ![512]⟩ : Shape).Idx → EReal) (W2 : (⟨2, ![512, 1]⟩ : Shape).Idx → EReal) (b2 : (⟨1, ![1]⟩ : Shape).Idx → EReal)
    (a c : Fin 512) : scores x y W1 b1 W2 b2 (ix2 a c) = score x y W1 b1 W2 b2 a c := rfl

/-- The score with its hidden sum taken in four runs of 128 lanes, accumulated from zero. -/
theorem score_eq_runs (x y : (⟨2, ![512, 128]⟩ : Shape).Idx → EReal) (W1 : (⟨2, ![256, 512]⟩ : Shape).Idx → EReal)
    (b1 : (⟨1, ![512]⟩ : Shape).Idx → EReal) (W2 : (⟨2, ![512, 1]⟩ : Shape).Idx → EReal) (b2 : (⟨1, ![1]⟩ : Shape).Idx → EReal)
    (a c : Fin 512) :
    score x y W1 b1 W2 b2 a c
      = ((((0 + ∑ k, unit x y W1 b1 W2 a c (lane 0 k)) + ∑ k, unit x y W1 b1 W2 a c (lane 1 k))
            + ∑ k, unit x y W1 b1 W2 a c (lane 2 k)) + ∑ k, unit x y W1 b1 W2 a c (lane 3 k))
          + b2 (ix1 (0 : Fin 1)) := by
  unfold score
  rw [sum_four]

/-- The two projections as one sum over the 256 rows of `W1`: for a row `r` of 256 entries whose first half is row `a`
    of `x` and whose second half is row `c` of `y`. -/
theorem proj_concat (x y : (⟨2, ![512, 128]⟩ : Shape).Idx → EReal) (W1 : (⟨2, ![256, 512]⟩ : Shape).Idx → EReal)
    (a c h : Fin 512) (r : Fin 256 → EReal)
    (hx : ∀ d : Fin 128, r ⟨d.val, by have := d.isLt; omega⟩ = x (ix2 a d))
    (hy : ∀ d : Fin 128, r ⟨128 + d.val, by have := d.isLt; omega⟩ = y (ix2 c d)) :
    ∑ e : Fin 256, r e * W1 (ix2 e h) = projX x W1 a h + projY y W1 c h := by
  rw [sum_halves]
  unfold projX projY
  refine congrArg₂ (· + ·) (Finset.sum_congr rfl fun d _ => ?_) (Finset.sum_congr rfl fun d _ => ?_)
  · rw [hx d]
  · rw [hy d]

/-- The hidden unit from the one-sum form: the bias added after both projections. -/
theorem unit_of_concat (x y : (⟨2, ![512, 128]⟩ : Shape).Idx → EReal) (W1 : (⟨2, ![256, 512]⟩ : Shape).Idx → EReal)
    (b1 : (⟨1, ![512]⟩ : Shape).Idx → EReal) (W2 : (⟨2, ![512, 1]⟩ : Shape).Idx → EReal) (a c h : Fin 512) (r : Fin 256 → EReal)
    (hx : ∀ d : Fin 128, r ⟨d.val, by have := d.isLt; omega⟩ = x (ix2 a d))
    (hy : ∀ d : Fin 128, r ⟨128 + d.val, by have := d.isLt; omega⟩ = y (ix2 c d)) :
    max ((∑ e : Fin 256, r e * W1 (ix2 e h)) + b1 (ix1 h)) 0 * W2 (ix2 h (0 : Fin 1)) = unit x y W1 b1 W2 a c h := by
  unfold unit
  rw [proj_concat x y W1 a c h r hx hy, add_right_comm]

end Cert.Pairwise

end
-- ==== Proof.KernelValue.lean ====
/-
  The idealized kernel's result is the pairwise score.

  The program slices `W1` into its first and last 128 rows and recasts `b1`, `W2` and `b2` as a row, a row and a
  one-entry matrix; the first pallas_call leaves the two projections `x · W1[0:128]` and `y · W1[128:256]`; the
  second leaves, at `(a, c)`, the four runs of hidden lanes accumulated from zero plus the offset, over rows `a` and `c`
  of the projections.  Read through those steps back to the launch memory, the result array at `(a, c)` is `score a c`
  of the six argument arrays, its hidden sum cut into four runs.
-/
import proofs.«132372_j86620900426436_2_alg».proof.Proof.KernelRun
import proofs.«132372_j86620900426436_2_alg».proof.Proof.Projections
import proofs.«132372_j86620900426436_2_alg».proof.Proof.PairBlocks
import proofs.«132372_j86620900426436_2_alg».proof.Proof.Score
import Idealize.ShloMosaic.Lib.StableHlo.Run
import Idealize.ShloMosaic.Lib.ValueLayout

set_option maxRecDepth 16384

noncomputable section

namespace Cert.KernelIdeal.Whole

open Idealize.ShloMosaic Idealize.ShloMosaic.TcCoe Idealize.ShloMosaic.ValueIdx Idealize.ShloMosaic.StableHlo
open Idealize.SL Idealize.SL.Sem
open Cert.KernelIdeal Cert.KernelIdeal.Gen Cert.Pairwise

/-! ## The two regions' results as functions of the argument arrays -/

section Entries

variable (x y : S512x128.Idx → EReal) (W1 : S256x512.Idx → EReal) (b1 : S512.Idx → EReal) (W2 : S512x1.Idx → EReal) (b2 : S1.Idx → EReal)

/-- The first projection at `(a, h)`: row `a` of `x` against the first 128 rows of `W1`. -/
theorem projX_eq (a h : Fin 512) :
    k0_pay1 (F := Ideal) x (extractStridedSlice S128x512 ![0, 0] W1 slices_S256x512_S128x512_0_0) (ix2 a h) = projX x W1 a h := by
  rw [Proj.pay1_apply]
  unfold projX
  refine Finset.sum_congr rfl fun d _ => ?_
  rw [slice2_axis0_eq]
  exact congrArg (fun r => x (ix2 a d) * W1 (ix2 r h)) (Fin.ext (by show 0 + d.val = d.val; omega))

/-- The second projection at `(c, h)`: row `c` of `y` against the last 128 rows of `W1`. -/
theorem projY_eq (c h : Fin 512) :
    k0_pay2 (F := Ideal) y (extractStridedSlice S128x512 ![128, 0] W1 slices_S256x512_S128x512_128_0) (ix2 c h) = projY y W1 c h := by
  rw [Proj.pay2_apply]
  unfold projY
  refine Finset.sum_congr rfl fun d _ => ?_
  rw [slice2_axis0_eq]

/-- The weight column recast as a row: entry `(0, ℓ)` is the column's entry `(ℓ, 0)`. -/
theorem weight_row (ℓ : Fin 512) :
    shapeCast S1x512 W2 shapeCasts_S512x1_S1x512 (ix2 (0 : Fin 1) ℓ) = W2 (ix2 ℓ (0 : Fin 1)) :=
  shapeCast_apply W2 shapeCasts_S512x1_S1x512 _ _ (by
    rw [Shape.rowMajor_val_two, Shape.rowMajor_val_two]
    show ℓ.val * 1 + 0 = 0 * 512 + ℓ.val
    omega)

/-- One hidden lane's contribution, over the first region's results and the recast rows, is the score's hidden unit. -/
theorem pairUnit_eq (a c ℓ : Fin 512) :
    Pair.pairUnit (k0_pay1 (F := Ideal) x (extractStridedSlice S128x512 ![0, 0] W1 slices_S256x512_S128x512_0_0))
        (k0_pay2 (F := Ideal) y (extractStridedSlice S128x512 ![128, 0] W1 slices_S256x512_S128x512_128_0))
        (shapeCast S1x512 b1 shapeCasts_S512_S1x512) (shapeCast S1x512 W2 shapeCasts_S512x1_S1x512) a c ℓ
      = Cert.Pairwise.unit x y W1 b1 W2 a c ℓ := by
  unfold Pair.pairUnit Cert.Pairwise.unit
  rw [projX_eq, projY_eq, weight_row, shapeCast_a_1a_apply]

/-- The second region's result over the first region's results and the recast rows is the array of scores. -/
theorem pairArray_eq_scores :
    Pair.pairArray (k0_pay1 (F := Ideal) x (extractStridedSlice S128x512 ![0, 0] W1 slices_S256x512_S128x512_0_0))
        (k0_pay2 (F := Ideal) y (extractStridedSlice S128x512 ![128, 0] W1 slices_S256x512_S128x512_128_0))
        (shapeCast S1x512 b1 shapeCasts_S512_S1x512) (shapeCast S1x512 W2 shapeCasts_S512x1_S1x512)
        (shapeCast S1x1 b2 shapeCasts_S1_S1x1)
      = scores x y W1 b1 W2 b2 := by
  funext i
  obtain ⟨a, c, rfl⟩ : ∃ (a c : Fin 512), i = ix2 a c := ⟨i 0, i 1, eq_ix2 i⟩
  rw [Pair.pairArray_ix2, scores_ix2, score_eq_runs]
  unfold Pair.pairEntry
  rw [shapeCast_a_1a_apply]
  have run : ∀ ch : Fin 4, ∑ k, Pair.pairUnit (k0_pay1 (F := Ideal) x (extractStridedSlice S128x512 ![0, 0] W1 slices_S256x512_S128x512_0_0))
        (k0_pay2 (F := Ideal) y (extractStridedSlice S128x512 ![128, 0] W1 slices_S256x512_S128x512_128_0))
        (shapeCast S1x512 b1 shapeCasts_S512_S1x512) (shapeCast S1x512 W2 shapeCasts_S512x1_S1x512) a c (lane ch k)
      = ∑ k, Cert.Pairwise.unit x y W1 b1 W2 a c (lane ch k) :=
    fun ch => Finset.sum_congr rfl fun k _ => pairUnit_eq x y W1 b1 W2 a c (lane ch k)
  rw [run 0, run 1, run 2, run 3]

end Entries

/-! ## The program's boundaries read back to the launch memory -/

variable (m : (ℓ : Loc nD τ sig) → Buf (Elt Ideal) ℓ) (ρ : Dev nD → PrngReg)

theorem host_arg0 (c : Dev nD) : V1 m ρ c main_arg0 = m ((c : Thread nD τ).loc main_arg0) := by
  show StableHlo.after hostOps0 (W0 m ρ c) (Proc.devRef .tc main_arg0) = _
  after_results <;> rfl

theorem host_arg1 (c : Dev nD) : V1 m ρ c main_arg1 = m ((c : Thread nD τ).loc main_arg1) := by
  show StableHlo.after hostOps0 (W0 m ρ c) (Proc.devRef .tc main_arg1) = _
  after_results <;> rfl

theorem host_v0 (c : Dev nD) :
    V1 m ρ c main_v0 = extractStridedSlice S128x512 ![0, 0] (m ((c : Thread nD τ).loc main_arg2)) slices_S256x512_S128x512_0_0 := by
  show StableHlo.after hostOps0 (W0 m ρ c) (Proc.devRef .tc main_v0) = _
  after_results <;> rfl

theorem host_v1 (c : Dev nD) :
    V1 m ρ c main_v1 = extractStridedSlice S128x512 ![128, 0] (m ((c : Thread nD τ).loc main_arg2)) slices_S256x512_S128x512_128_0 := by
  show StableHlo.after hostOps0 (W0 m ρ c) (Proc.devRef .tc main_v1) = _
  after_results <;> rfl

theorem host_v2 (c : Dev nD) :
    V1 m ρ c main_v2 = shapeCast S1x512 (m ((c : Thread nD τ).loc main_arg3)) shapeCasts_S512_S1x512 := by
  show StableHlo.after hostOps0 (W0 m ρ c) (Proc.devRef .tc main_v2) = _
  after_results <;> rfl

theorem host_v3 (c : Dev nD) :
    V1 m ρ c main_v3 = shapeCast S1x512 (m ((c : Thread nD τ).loc main_arg4)) shapeCasts_S512x1_S1x512 := by
  show StableHlo.after hostOps0 (W0 m ρ c) (Proc.devRef .tc main_v3) = _
  after_results <;> rfl

theorem host_v4 (c : Dev nD) :
    V1 m ρ c main_v4 = shapeCast S1x1 (m ((c : Thread nD τ).loc main_arg5)) shapeCasts_S1_S1x1 := by
  show StableHlo.after hostOps0 (W0 m ρ c) (Proc.devRef .tc main_v4) = _
  after_results <;> rfl

/-- After the first region its first result holds the first projection of the launch arrays, -/
theorem mid_px (c : Dev nD) :
    V2 m ρ c main_v5_0 = k0_pay1 (F := Ideal) (m ((c : Thread nD τ).loc main_arg0))
      (extractStridedSlice S128x512 ![0, 0] (m ((c : Thread nD τ).loc main_arg2)) slices_S256x512_S128x512_0_0) :=
  (W2_arr m ρ c 4).trans ((Proj.result_4 (V1 m ρ) c).trans (by rw [host_arg0, host_v0]))

/-- its second result the second projection, -/
theorem mid_py (c : Dev nD) :
    V2 m ρ c main_v5_1 = k0_pay2 (F := Ideal) (m ((c : Thread nD τ).loc main_arg1))
      (extractStridedSlice S128x512 ![128, 0] (m ((c : Thread nD τ).loc main_arg2)) slices_S256x512_S128x512_128_0) :=
  (W2_arr m ρ c 5).trans ((Proj.result_5 (V1 m ρ) c).trans (by rw [host_arg1, host_v1]))

/-- and the recast rows are as the host operations left them. -/
theorem mid_b1 (c : Dev nD) : V2 m ρ c main_v2 = shapeCast S1x512 (m ((c : Thread nD τ).loc main_arg3)) shapeCasts_S512_S1x512 :=
  (W2_of_ne m ρ c main_v2 (by decide)).trans (host_v2 m ρ c)
theorem mid_w2 (c : Dev nD) : V2 m ρ c main_v3 = shapeCast S1x512 (m ((c : Thread nD τ).loc main_arg4)) shapeCasts_S512x1_S1x512 :=
  (W2_of_ne m ρ c main_v3 (by decide)).trans (host_v3 m ρ c)
theorem mid_b2 (c : Dev nD) : V2 m ρ c main_v4 = shapeCast S1x1 (m ((c : Thread nD τ).loc main_arg5)) shapeCasts_S1_S1x1 :=
  (W2_of_ne m ρ c main_v4 (by decide)).trans (host_v4 m ρ c)

/-- The result array at the end of the program is the array of scores of the launch arrays. -/
theorem result_eq (c : Dev nD) :
    W3 m ρ c (Proc.devRef .tc main_v6)
      = scores (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  refine (W3_arr m ρ c 5).trans ((Pair.result (V2 m ρ) c).trans ?_)
  rw [mid_px, mid_py, mid_b1, mid_w2, mid_b2]
  exact pairArray_eq_scores _ _ _ _ _ _

/-- The run with the result named as the scores. -/
theorem run_scores : θ_run defs (onTc (τ := τ) (main (F := Ideal))) ⟨m, fun _ => 0, ρ⟩ (fun r => ∀ c : Dev nD,
      r.2.mem ((c.tc : Thread nD τ).loc main_v6)
        = scores (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (result_eq m ρ c), (h c).2⟩) (run_result m ρ)

end Cert.KernelIdeal.Whole

end
-- ==== Proof.RefScore.lean ====
/-
  The reference's result is the pairwise score.

  The reference stacks, for every ordered pair (row `i` of `y`, row `j` of `x`), the 256-entry row made of row `j` of
  `x` followed by row `i` of `y`; multiplies the `262144 × 256` matrix of those rows by `W1`; adds `b1`; takes the
  positive part; multiplies by `W2`; adds `b2`; and lays the `262144` results out as a `512 × 512` matrix, transposed.
  Entry `(a, c)` of the result is therefore the value at stacked row `512·c + a`, the pair (row `a` of `x`, row `c` of `y`).
  Its one sum over the 256 entries of the stacked row splits into the two projections, and the bias may be added
  between them: the result is `score a c`.
-/
import proofs.«132372_j86620900426436_2_alg».proof.Proof.Gen.ReferenceIdeal.Read
import proofs.«132372_j86620900426436_2_alg».proof.Proof.Score

set_option maxRecDepth 16384

noncomputable section

namespace Cert.ReferenceIdeal.RefValue

open Cert.ReferenceIdeal Cert.ReferenceIdeal.Gen Cert.ReferenceIdeal.Read
open Idealize.ShloMosaic Idealize.ShloMosaic.TcCoe Idealize.ShloMosaic.ValueIdx
open Cert.Pairwise

/-- The stacked row of the pair (row `a` of `x`, row `c` of `y`). -/
def pairRow (c a : Fin 512) : Fin 262144 := ⟨c.val * 512 + a.val, by have := c.isLt; have := a.isLt; omega⟩

/-! ## The index maps of the reference's layout operations, at the stacked row -/

theorem idx_out (a c : Fin 512) : idx_main_v15 (idx_main_v16 (ix2 a c)) = ix2 (pairRow c a) (0 : Fin 1) :=
  funext fun ax => Fin.ext (by
    match ax with
    | ⟨0, _⟩ => show (c.val * 512 + a.val) / 1 = c.val * 512 + a.val; omega
    | ⟨1, _⟩ => rfl)

theorem idx_offset (n : Fin 262144) : idx_main_v12 (idx_main_v13 (ix2 n (0 : Fin 1))) = ix1 (0 : Fin 1) :=
  funext fun ax => Fin.ext (by match ax with | ⟨0, _⟩ => rfl)

theorem lidx_hidden (n : Fin 262144) (h : Fin 512) : lidx_main_v11 (ix2 n (0 : Fin 1)) h = ix2 n h :=
  funext fun ax => Fin.ext (by match ax with | ⟨0, _⟩ => rfl | ⟨1, _⟩ => rfl)

theorem ridx_hidden (n : Fin 262144) (h : Fin 512) : ridx_main_v11 (ix2 n (0 : Fin 1)) h = ix2 h (0 : Fin 1) :=
  funext fun ax => Fin.ext (by match ax with | ⟨0, _⟩ => rfl | ⟨1, _⟩ => rfl)

theorem idx_bias (n : Fin 262144) (h : Fin 512) : idx_main_v7 (idx_main_v8 (ix2 n h)) = ix1 h :=
  funext fun ax => Fin.ext (by match ax with | ⟨0, _⟩ => rfl)

theorem lidx_entry (n : Fin 262144) (h : Fin 512) (e : Fin 256) : lidx_main_v6 (ix2 n h) e = ix2 n e :=
  funext fun ax => Fin.ext (by match ax with | ⟨0, _⟩ => rfl | ⟨1, _⟩ => rfl)

theorem ridx_entry (n : Fin 262144) (h : Fin 512) (e : Fin 256) : ridx_main_v6 (ix2 n h) e = ix2 e h :=
  funext fun ax => Fin.ext (by match ax with | ⟨0, _⟩ => rfl | ⟨1, _⟩ => rfl)

/-- Entry `e` of stacked row `512·c + a` sits at `(c, a, e)` of the stack before it was flattened. -/
theorem idx_stack (c a : Fin 512) (e : Fin 256) : idx_main_v5 (ix2 (pairRow c a) e) = ix3 c a e :=
  funext fun ax => Fin.ext (by
    have hc := c.isLt; have ha := a.isLt; have he := e.isLt
    match ax with
    | ⟨0, _⟩ => show ((c.val * 512 + a.val) * 256 + e.val) / 131072 = c.val; omega
    | ⟨1, _⟩ => show ((c.val * 512 + a.val) * 256 + e.val) / 256 % 512 = a.val; omega
    | ⟨2, _⟩ => show ((c.val * 512 + a.val) * 256 + e.val) % 256 = e.val; omega)

/-! ## The stacked row's two halves -/

variable (x0 x1 : (⟨S512x128, .f32⟩ : BufTy).Contents (Elt Ideal))

/-- The first 128 entries of the stacked row of the pair `(a, c)` are row `a` of `x`. -/
theorem stack_left (c a : Fin 512) (d : Fin 128) :
    val_main_v4 (F := Ideal) x0 x1 (ix3 c a (⟨d.val, by have := d.isLt; omega⟩ : Fin 256)) = x0 (ix2 a d) := by
  unfold val_main_v4
  refine (concatenate_pair_apply_left 2 _ _ concatenates_S512x512x128_S512x512x128_S512x512x256_d2
    (ix3 c a (⟨d.val, by have := d.isLt; omega⟩ : Fin 256)) rfl (ix3 c a d) (fun b => by
      match b with
      | ⟨0, _⟩ => rfl
      | ⟨1, _⟩ => rfl
      | ⟨2, _⟩ => rfl)).trans ?_
  rw [val_main_v1_apply, val_main_v0_apply]
  exact congrArg x0 (funext fun ax => Fin.ext (by match ax with | ⟨0, _⟩ => rfl | ⟨1, _⟩ => rfl))

/-- The last 128 entries of the stacked row of the pair `(a, c)` are row `c` of `y`. -/
theorem stack_right (c a : Fin 512) (d : Fin 128) :
    val_main_v4 (F := Ideal) x0 x1 (ix3 c a (⟨128 + d.val, by have := d.isLt; omega⟩ : Fin 256)) = x1 (ix2 c d) := by
  unfold val_main_v4
  refine (concatenate_pair_apply_right 2 _ _ concatenates_S512x512x128_S512x512x128_S512x512x256_d2
    (ix3 c a (⟨128 + d.val, by have := d.isLt; omega⟩ : Fin 256)) rfl rfl (ix3 c a d) (fun b hb => by
      match b with
      | ⟨0, _⟩ => rfl
      | ⟨1, _⟩ => rfl
      | ⟨2, _⟩ => exact absurd rfl hb) (by show d.val + 128 = 128 + d.val; omega)).trans ?_
  rw [val_main_v3_apply, val_main_v2_apply]
  exact congrArg x1 (funext fun ax => Fin.ext (by match ax with | ⟨0, _⟩ => rfl | ⟨1, _⟩ => rfl))

/-! ## The result -/

/-- The reference's result array is the array of pairwise scores. -/
theorem result_eq (x2 : (⟨S256x512, .f32⟩ : BufTy).Contents (Elt Ideal)) (x3 : (⟨S512, .f32⟩ : BufTy).Contents (Elt Ideal))
    (x4 : (⟨S512x1, .f32⟩ : BufTy).Contents (Elt Ideal)) (x5 : (⟨S1, .f32⟩ : BufTy).Contents (Elt Ideal)) :
    val_main_v16 (F := Ideal) x0 x1 x2 x3 x4 x5 = scores x0 x1 x2 x3 x4 x5 := by
  funext i
  obtain ⟨a, c, rfl⟩ : ∃ (a c : Fin 512), i = ix2 a c := ⟨i 0, i 1, eq_ix2 i⟩
  rw [scores_ix2, val_main_v16_apply, val_main_v15_apply, idx_out, val_main_v14_apply, val_main_v11_apply,
    val_main_v13_apply, val_main_v12_apply, idx_offset]
  unfold score
  refine congrArg₂ (· + ·) (Finset.sum_congr rfl fun h _ => ?_) rfl
  rw [lidx_hidden, ridx_hidden, val_main_v10_apply, val_main_v9_apply, val_main_v6_apply, val_main_v8_apply,
    val_main_v7_apply, idx_bias, val_main_call0_v0_apply, val_main_call0_cst_apply]
  show max ((∑ e : Fin 256, val_main_v5 (F := Ideal) x0 x1 (lidx_main_v6 (ix2 (pairRow c a) h) e)
      * x2 (ridx_main_v6 (ix2 (pairRow c a) h) e)) + x3 (ix1 h)) (Ideal.ofBits .f32 0x00000000#32) * x4 (ix2 h (0 : Fin 1)) = _
  rw [Ideal.ofBits_zero_f32]
  simp only [lidx_entry, ridx_entry]
  exact unit_of_concat x0 x1 x2 x3 x4 a c h (fun e => val_main_v5 (F := Ideal) x0 x1 (ix2 (pairRow c a) e))
    (fun d => by rw [val_main_v5_apply, idx_stack]; exact stack_left x0 x1 c a d)
    (fun d => by rw [val_main_v5_apply, idx_stack]; exact stack_right x0 x1 c a d)

end Cert.ReferenceIdeal.RefValue

end
-- ==== Proof.lean ====
/-
  The pairwise concat-critic: a two-stage Pallas kernel against the jnp reference, equal over the extended reals.

  For `x, y : [512, 128]`, `W1 : [256, 512]`, `b1 : [512]`, `W2 : [512, 1]`, `b2 : [1]` both programs compute, at `(a, c)`,
    score a c = (∑ h < 512, max ((X a h + b1 h) + Y c h) 0 · W2 h) + b2,
    X a h = ∑ d < 128, x (a, d) · W1 (d, h),     Y c h = ∑ d < 128, y (c, d) · W1 (128 + d, h).
  The reference builds, for every pair, the 256-entry row (row `a` of `x`, then row `c` of `y`), multiplies by `W1` in ONE
  sum over 256 entries, adds `b1`, and sums the weighted positive parts over all 512 hidden lanes at once
  (Proof/RefScore.lean).  The kernel computes the two projections `X` and `Y` separately in a first pallas_call
  (Proof/Projections.lean), and in a second one, block by block over an 8 × 4 grid, adds `b1` to `X` before adding `Y`,
  and accumulates the hidden sum from zero in four runs of 128 lanes (Proof/PairBody.lean, PairValue.lean,
  PairBlocks.lean; the program's boundaries read back to the launch memory in Proof/KernelValue.lean).  The two
  differ by a regrouping of sums and of one three-term addition (Proof/SumSplit.lean, Proof/Score.lean): associativity and
  commutativity of addition on the extended reals, which hold at the infinities too, so the precondition that the
  inputs are finite is not used.  The change of float format on the way into the matrix unit is the identity at the
  ideal values, and the ideal pass rewrote no operation, so `preserves` is trivial.  The three frames are the generated
  frame certificates of the two kernel programs and the reference's generated run with its result dropped.
-/
import proofs.«132372_j86620900426436_2_alg».proof.Defs
import proofs.«132372_j86620900426436_2_alg».proof.Proof.Gen.Kernel
import proofs.«132372_j86620900426436_2_alg».proof.Proof.Gen.Kernel.Frame
import proofs.«132372_j86620900426436_2_alg».proof.Proof.Gen.KernelIdeal
import proofs.«132372_j86620900426436_2_alg».proof.Proof.Gen.KernelIdeal.Frame
import proofs.«132372_j86620900426436_2_alg».proof.Proof.Gen.ReferenceIdeal
import proofs.«132372_j86620900426436_2_alg».proof.Proof.Gen.ReferenceIdeal.Run
import proofs.«132372_j86620900426436_2_alg».proof.Proof.Gen.ReferenceIdeal.Read
import proofs.«132372_j86620900426436_2_alg».proof.Proof.Gen.Pre_finite_inputs
import proofs.«132372_j86620900426436_2_alg».proof.Proof.KernelValue
import proofs.«132372_j86620900426436_2_alg».proof.Proof.RefScore

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories agreeing on the six arguments, the kernel's result array ends at the scores of its arguments and the
    reference's at the scores of its own, which are the same arrays. -/
theorem algebraic : Cert.algebraic_KernelIdeal_ReferenceIdeal := by
  intro m ρ m' ρ' _ hagree
  refine ⟨_, Cert.KernelIdeal.Whole.run_scores m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v16_eq _ _ _ _ _ _).trans ?_
  rw [Cert.ReferenceIdeal.RefValue.result_eq, (hagree c).1, (hagree c).2.1, (hagree c).2.2.1, (hagree c).2.2.2.1,
    (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
